-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  main_v3
-- ==== Kernel.lean ====
abbrev S8x2048x2048 : Shape := ⟨3, ![8, 2048, 2048]⟩
abbrev S8x2048 : Shape := ⟨2, ![8, 2048]⟩
abbrev S8x256x1024 : Shape := ⟨3, ![8, 256, 1024]⟩
abbrev S8x256 : Shape := ⟨2, ![8, 256]⟩
abbrev S8x256x512 : Shape := ⟨3, ![8, 256, 512]⟩
abbrev S8x512 : Shape := ⟨2, ![8, 512]⟩
abbrev S256x512 : Shape := ⟨2, ![256, 512]⟩
abbrev S1x256x512 : Shape := ⟨3, ![1, 256, 512]⟩
abbrev S8x256x1 : Shape := ⟨3, ![8, 256, 1]⟩
abbrev S8x1x512 : Shape := ⟨3, ![8, 1, 512]⟩

abbrev nBuf : Space → Nat
  | .hbm => 3
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S8x2048, .f32⟩
  | .hbm, ⟨2, _⟩ => ⟨S8x2048x2048, .f32⟩
  | .local _ .vmem, ⟨0, _⟩ => ⟨S8x256x1024, .f32⟩
  | .local _ .vmem, ⟨1, _⟩ => ⟨S8x256x1024, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256x512, .f32⟩
  | .local _ .vmem, ⟨6, _⟩ => ⟨S8x256x512, .f32⟩
  | .local _ .vmem, ⟨7, _⟩ => ⟨S8x256, .f32⟩
  | .local _ .vmem, ⟨8, _⟩ => ⟨S8x256, .f32⟩
  | .local _ .vmem, ⟨9, _⟩ => ⟨S8x512, .f32⟩
  | .local _ .vmem, ⟨10, _⟩ => ⟨S8x512, .f32⟩
  | .local _ .vmem, ⟨11, _⟩ => ⟨S8x256x512, .f32⟩
  | .local _ .vmem, ⟨12, _⟩ => ⟨S8x256x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond1 (i : grid1.Coords) : BitVec 1 :=
  let arg1 : BitVec 32 := BitVec.ofNat 32 (i 1).val
  let c512_i32 : BitVec 32 := 512#32
  let v8 : BitVec 32 := Scalar.muli arg1 c512_i32
  let arg0 : BitVec 32 := BitVec.ofNat 32 (i 0).val
  let c256_i32 : BitVec 32 := 256#32
  let v5 : BitVec 32 := Scalar.muli arg0 c256_i32
  let c256_i32_6 : BitVec 32 := 256#32
  let v6 : BitVec 32 := Scalar.addi v5 c256_i32_6
  let c1_i32 : BitVec 32 := 1#32
  let v7 : BitVec 32 := Scalar.subi v6 c1_i32
  let v11 : BitVec 1 := Scalar.cmpi .sle v8 v7
  let c512_i32_7 : BitVec 32 := 512#32
  let v9 : BitVec 32 := Scalar.addi v8 c512_i32_7
  let c1_i32_8 : BitVec 32 := 1#32
  let v10 : BitVec 32 := Scalar.subi v9 c1_i32_8
  let v12 : BitVec 1 := Scalar.cmpi .sle v5 v10
  let v13 : BitVec 1 := Scalar.andi v11 v12
  let v14 : BitVec 32 := Scalar.extui v13
  let c0_i32 : BitVec 32 := 0#32
  let v15 : BitVec 1 := Scalar.cmpi .ne v14 c0_i32
  v15

def k1_cond2 (i : grid1.Coords) : BitVec 1 :=
  let arg1 : BitVec 32 := BitVec.ofNat 32 (i 1).val
  let c512_i32 : BitVec 32 := 512#32
  let v8 : BitVec 32 := Scalar.muli arg1 c512_i32
  let arg0 : BitVec 32 := BitVec.ofNat 32 (i 0).val
  let c256_i32 : BitVec 32 := 256#32
  let v5 : BitVec 32 := Scalar.muli arg0 c256_i32
  let c256_i32_6 : BitVec 32 := 256#32
  let v6 : BitVec 32 := Scalar.addi v5 c256_i32_6
  let c1_i32 : BitVec 32 := 1#32
  let v7 : BitVec 32 := Scalar.subi v6 c1_i32
  let v11 : BitVec 1 := Scalar.cmpi .sle v8 v7
  let c512_i32_7 : BitVec 32 := 512#32
  let v9 : BitVec 32 := Scalar.addi v8 c512_i32_7
  let c1_i32_8 : BitVec 32 := 1#32
  let v10 : BitVec 32 := Scalar.subi v9 c1_i32_8
  let v12 : BitVec 1 := Scalar.cmpi .sle v5 v10
  let v13 : BitVec 1 := Scalar.andi v11 v12
  let v_true : BitVec 1 := 1#1
  let v16 : BitVec 1 := Scalar.xori v13 v_true
  let v17 : BitVec 32 := Scalar.extui v16
  let c0_i32_9 : BitVec 32 := 0#32
  let v18 : BitVec 1 := Scalar.cmpi .ne v17 c0_i32_9
  v18

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S8x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x1024_S8x256x1024_0_0_0 : ∀ a, (![0, 0, 0] : Fin 3 → Nat) a + S8x256x1024.size a ≤ S8x256x1024.size a
  h_S8x256x1024 : 0 < S8x256x1024.numel
  reduces_S8x256x1024_S8x256 : S8x256x1024.Reduces [2] S8x256
  inb_S8x256x512_S8x256x512_0_0_0 : ∀ a, (![0, 0, 0] : Fin 3 → Nat) a + S8x256x512.size a ≤ S8x256x512.size a
  h_S8x256x512 : 0 < S8x256x512.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  iota_S256x512_d0_w32 : S256x512.Iotas .tc 32 [0]
  iota_S256x512_d1_w32 : S256x512.Iotas .tc 32 [1]
  natLt_1_32 : 1 < 32
  shapeCasts_S256x512_S1x256x512 : S256x512.ShapeCasts S1x256x512
  broadcasts_S1x256x512_S8x256x512 : S1x256x512.Broadcasts S8x256x512
  shapeCasts_S8x256_S8x256x1 : S8x256.ShapeCasts S8x256x1
  broadcasts_S8x256x1_S8x256x512 : S8x256x1.Broadcasts S8x256x512
  shapeCasts_S8x512_S8x1x512 : S8x512.ShapeCasts S8x1x512
  broadcasts_S8x1x512_S8x256x512 : S8x1x512.Broadcasts S8x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S8x2048x2048.size a
  hwx0_0 : ∀ i : grid0.Coords, EltTy.bits .f32 = 32 ∨ (Rect.block (s := S8x2048x2048) S8x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S8x2048.size a
  hwx0_1 : ∀ i : grid0.Coords, EltTy.bits .f32 = 32 ∨ (Rect.block (s := S8x2048) S8x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S8x2048x2048.size a
  hwx1_0 : ∀ i : grid1.Coords, EltTy.bits .f32 = 32 ∨ (Rect.block (s := S8x2048x2048) S8x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S8x2048.size a
  hwx1_1 : ∀ i : grid1.Coords, EltTy.bits .f32 = 32 ∨ (Rect.block (s := S8x2048) S8x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x2048.size a
  hwx1_2 : ∀ i : grid1.Coords, EltTy.bits .f32 = 32 ∨ (Rect.block (s := S8x2048) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x512.size a ≤ S8x2048x2048.size a
  hwx1_3 : ∀ i : grid1.Coords, EltTy.bits .f32 = 32 ∨ (Rect.block (s := S8x2048x2048) S8x256x512.size (cc1_transform_3 i) (hinb1_3 i)).WholeWords (EltTy.packing .f32)

variable [Facts₀]

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8x256x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where
  halias1_3 : Pipeline.Aliased win1 0 3

variable [Facts]
-- ==== ReferenceIdeal.lean ====
abbrev S8x2048x2048 : Shape := ⟨3, ![8, 2048, 2048]⟩
abbrev S2048x2048 : Shape := ⟨2, ![2048, 2048]⟩
abbrev S_ : Shape := ⟨0, ![]⟩
abbrev S1x2048x2048 : Shape := ⟨3, ![1, 2048, 2048]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .i32⟩
  | .hbm, ⟨2, _⟩ => ⟨S2048x2048, .i32⟩
  | .hbm, ⟨3, _⟩ => ⟨S_, .i32⟩
  | .hbm, ⟨4, _⟩ => ⟨S2048x2048, .i32⟩
  | .hbm, ⟨5, _⟩ => ⟨S2048x2048, .i32⟩
  | .hbm, ⟨6, _⟩ => ⟨S2048x2048, .i1⟩
  | .hbm, ⟨7, _⟩ => ⟨S2048x2048, .f32⟩
  | .hbm, ⟨8, _⟩ => ⟨S1x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .i1⟩
  | .hbm, ⟨16, _⟩ => ⟨S_, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .i1⟩
  | .hbm, ⟨22, _⟩ => ⟨S8x2048, .f32⟩
  | .hbm, ⟨23, _⟩ => ⟨S_, .f32⟩
  | .hbm, ⟨24, _⟩ => ⟨S8x2048, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)

variable [Facts₀]

class Facts : Prop extends Facts₀ where

variable [Facts]
-- ==== Proof.Kernel.Region0.lean ====
import proofs.«141870_j36000415875584_2_alg».proof.Proof.Gen.Kernel.Launch
import proofs.«141870_j36000415875584_2_alg».proof.Proof.Gen.Kernel.Points
import proofs.«141870_j36000415875584_2_alg».proof.Proof.Gen.Kernel.Skeleton
import Idealize.ShloMosaic.Lib.Pipeline.FrameBody
import Idealize.ShloMosaic.Lib.Pipeline.Value
import Idealize.ShloMosaic.Lib.Tactic

/-!
# The first pipelined call: row sums accumulated over two column chunks, then finalized

The grid has 8 x 2 points; point `t` has coordinates `(t / 2, t % 2)`. At every point the body adds the row sums of
the [8,256,1024] input block to an [8,256] scratch block that it carries from point to point. At the points with
`t % 2 = 0` it first resets the scratch to zero and leaves the output block untouched; at the points with `t % 2 = 1`
it finalizes the scratch into the output block, which is then written back. So after an even point `t` the scratch
holds `0 + rowsum (block t)`, after the odd point `t + 1` it holds `(0 + rowsum (block t)) + rowsum (block (t + 1))`,
and the output block written back at the odd point is the finalization of that.

This file states the proof data of that pipeline at arbitrary entry contents `V`, generically in the float
instance, and proves that the body meets its obligation at every grid point.
-/

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The first condition of the body: the second grid coordinate is 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The second condition of the body: the second grid coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The input window is stored into nowhere, so it is never idle. -/
theorem liveAt0_0 : ∀ t : Fin cfg0.N, cfg0.idle 0 (grid0.coords t) = false :=
  (by decide +kernel : ∀ t : Fin grid0.N, idle0 0 (grid0.coords t) = false)
/-- At the even points the body stores nothing into the output block: the window is idle there, -/
theorem idleAt0_1_even : ∀ t : Fin cfg0.N, t.val % 2 = 0 → cfg0.idle 1 (grid0.coords t) = true :=
  (by decide +kernel : ∀ t : Fin grid0.N, t.val % 2 = 0 → idle0 1 (grid0.coords t) = true)
/-- and the block is not written back there. -/
theorem noFlush0_1_even (t : Fin cfg0.N) (h : t.val % 2 = 0) : (cfg0.win 1).flush t = false :=
  Bool.eq_false_iff.mpr fun hf => by have := (flush0_1 t).mp hf; omega
/-- At the odd points the body stores the output block. -/
theorem liveAt0_1_odd : ∀ t : Fin cfg0.N, t.val % 2 = 1 → cfg0.idle 1 (grid0.coords t) = false :=
  (by decide +kernel : ∀ t : Fin grid0.N, t.val % 2 = 1 → idle0 1 (grid0.coords t) = false)

/-! ## The body on arbitrary whole buffers, one statement per control case -/

theorem hz2 : (![0, 0] : Fin 2 → Nat) = fun _ => 0 := funext fun a => by fin_cases a <;> rfl
theorem hz3 : (![0, 0, 0] : Fin 3 → Nat) = fun _ => 0 := funext fun a => by fin_cases a <;> rfl

/-- A list of stores whose last one fills the whole [8,256] buffer covers it. -/
theorem cover_last (p0 : Vec F S8x256 .f32) (L : List (View.Piece (Elt F) S8x256 .f32)) (y : S8x256.Idx) :
    ∃ pc ∈ ((⟨Rect.unit (s := S8x256) ![0, 0] S8x256.size inb_S8x256_S8x256_0_0, p0⟩ : View.Piece (Elt F) S8x256 .f32) :: L), y ∈ pc.1.set :=
  ⟨_, List.mem_cons_self, View.mem_set_unit_zero hz2 inb_S8x256_S8x256_0_0 y⟩

set_option maxHeartbeats 1000000 in
/-- The body at a point whose second coordinate is 0: the scratch, whatever it held, is reset to the zero block and
    then holds the zero block plus the row sums of the input block; the output's buffer is not touched. -/
theorem sound_kernel0_A (c : Dev nD) (E : Set ℕ) (i : grid0.Coords) (arg2 : Memref sig .tc .vmem S8x256x1024 .f32) (harg2 : arg2.IsWhole) (arg3 : Memref sig .tc .vmem S8x256 .f32) (harg3 : arg3.IsWhole) (arg4 : Memref sig .tc .vmem S8x256 .f32) (harg4 : arg4.IsWhole)
    (hc0 : cond0_0 i) (hc1 : ¬cond0_1 i)
    (x0 : Vec F S8x256x1024 .f32) (xi1 : Vec F S8x256 .f32) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 x0 k0_pay1)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (cover_last _ _)]
  rw [View.canon_cons_unit_zero (S := S8x256) hz2]
  sl_unfold_words
  rw [View.readCov_unit_zero (S := S8x256) _ hz2]
  simp only [View.readAt_eq_ld, harg2.read_unread, View.ld_unit_zero (S := S8x256x1024) hz3]

set_option maxHeartbeats 1000000 in
/-- The body at a point whose second coordinate is 1: the scratch, holding `xs0`, ends holding `xs0` plus the row sums
    of the input block, and the output's buffer, whatever it held, ends holding the finalized block of that. -/
theorem sound_kernel0_B (c : Dev nD) (E : Set ℕ) (i : grid0.Coords) (arg2 : Memref sig .tc .vmem S8x256x1024 .f32) (harg2 : arg2.IsWhole) (arg3 : Memref sig .tc .vmem S8x256 .f32) (harg3 : arg3.IsWhole) (arg4 : Memref sig .tc .vmem S8x256 .f32) (harg4 : arg4.IsWhole)
    (hc0 : ¬cond0_0 i) (hc1 : cond0_1 i)
    (x0 : Vec F S8x256x1024 .f32) (xs0 : Vec F S8x256 .f32) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 x0 xs0)) ∗ owns (c : Thread nD τ) arg4 fullShare (k0_pay2 x0 xs0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [View.read_writes_eq_canon _ _ _ (cover_last _ _)]
    rw [View.canon_unit_zero (S := S8x256) hz2]
    sl_unfold_words
    rw [View.readCov_unit_zero (S := S8x256) _ hz2]
    simp only [View.readAt_eq_ld, harg2.read_unread, harg4.read_unread, View.ld_unit_zero (S := S8x256x1024) hz3, View.ld_unit_zero (S := S8x256) hz2]
  iexists _; isplitr
  swap; · iexact HS0
  ipureintro
  sl_unfold_words
  rw [View.read_writes_eq_canon _ _ _ (cover_last _ _)]
  rw [View.canon_unit_zero (S := S8x256) hz2]
  simp only [View.readAt_eq_ld, harg2.read_unread, harg4.read_unread, View.ld_unit_zero (S := S8x256x1024) hz3, View.ld_unit_zero (S := S8x256) hz2]

/-! ## The proof data, at the contents `V` the buffers hold when the region is entered -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose input array is
    `V`'s and whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scratch block after point `t`: at an even point the zero block plus the row sums of the point's input block;
    at an odd point that of the point before plus the row sums of this point's input block. -/
def acc0 (c : Dev nD) (t : Fin cfg0.N) : Vec F S8x256 .f32 :=
  if t.val % 2 = 0 then k0_pay2 (iblk0 V c 0 t) k0_pay1
  else k0_pay2 (iblk0 V c 0 t) (k0_pay2 (iblk0 V c 0 ⟨t.val - 1, Nat.lt_of_le_of_lt (Nat.sub_le _ _) t.isLt⟩) k0_pay1)

theorem acc0_even (c : Dev nD) (t : Fin cfg0.N) (h : t.val % 2 = 0) :
    acc0 V c t = k0_pay2 (iblk0 V c 0 t) k0_pay1 := if_pos h

theorem acc0_odd (c : Dev nD) (t : Fin cfg0.N) (h : t.val % 2 = 1) :
    acc0 V c t = k0_pay2 (iblk0 V c 0 t) (k0_pay2 (iblk0 V c 0 ⟨t.val - 1, Nat.lt_of_le_of_lt (Nat.sub_le _ _) t.isLt⟩) k0_pay1) :=
  if_neg (by omega)

/-- The scratch operand: a whole scoped buffer of the kernel's own. -/
abbrev scM0 : Memref sig .tc .vmem S8x256 .f32 := Memref.whole cc0_scratch0

/-- The core's scoped buffers that are neither a staging buffer of this call nor its scratch, at some contents each:
    the body never touches them. -/
abbrev others0 (c : Dev nD) : sProp 𝕄 :=
  Pipeline.scopedRestBut (Ix := Unit) (Name := ℕ) (U := UR sig nD τ) (Lvl := ℕ) (Val := Elt F) spec0 c [cc0_scratch0]

/-- The scoped buffers no window stages are the scratch, at some contents, and the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  rw [Pipeline.scopedRest_split_of_list spec0 c [cc0_scratch0] (by decide) (by decide)]
  simp only [bigSepL_singleton, scM0, owns_whole]; try rfl

/-- The invariant before position `n`: before an even position (the body is about to reset the scratch, or the grid is
    done) the scoped buffers no window stages, each at some contents; before an odd position the scratch at what the
    even point before left in it, and the others. -/
def Phi0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn =>
    if (n + 1) % 2 = 1 then iprop(owns (c : Thread nD τ) scM0 fullShare (acc0 V c ⟨n, hn⟩) ∗ others0 c)
    else Pipeline.scopedRest (Ix := Unit) (Name := ℕ) (U := UR sig nD τ) (Lvl := ℕ) (Val := Elt F) spec0 c

theorem Phi0_even (c : Dev nD) (n : ℕ) (hn : n ≤ cfg0.N) (h : n % 2 = 0) :
    Phi0 V c n hn = Pipeline.scopedRest (Ix := Unit) (Name := ℕ) (U := UR sig nD τ) (Lvl := ℕ) (Val := Elt F) spec0 c := by
  cases n with
  | zero => rfl
  | succ n => exact if_neg (by omega)

theorem Phi0_odd (c : Dev nD) (n : ℕ) (hn : n ≤ cfg0.N) (h : n % 2 = 1) :
    Phi0 V c n hn = iprop(owns (c : Thread nD τ) scM0 fullShare (acc0 V c ⟨n - 1, by omega⟩) ∗ others0 c) := by
  cases n with
  | zero => exact absurd h (by decide)
  | succ n => exact if_pos h

/-- After point `t` (before position `t + 1`), for an even `t`. -/
theorem Phi0_succ_even (c : Dev nD) (t : Fin cfg0.N) (h : t.val % 2 = 0) :
    Phi0 V c (t.val + 1) t.isLt = iprop(owns (c : Thread nD τ) scM0 fullShare (acc0 V c t) ∗ others0 c) :=
  if_pos (by omega)

/-- The proof data of the pipeline on core `c`: the arrays as the region finds them; after the body the input's
    buffer at its block and the output's at the finalized scratch; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t) := by dsimp only [dat0]

/-- The invariant at a point's start and at its end, restated at the point's position. -/
theorem Phi_castSucc (c : Dev nD) (t : Fin cfg0.N) :
    (dat0 V c).Φ t.castSucc = Phi0 V c t.val (Nat.le_of_lt t.isLt) := by
  dsimp only [dat0]; simp only [Fin.coe_castSucc]
theorem Phi_succ (c : Dev nD) (t : Fin cfg0.N) :
    (dat0 V c).Φ t.succ = Phi0 V c (t.val + 1) t.isLt := rfl

/-- The input's current buffer holds its block at every point. -/
theorem before0_0 (c : Dev nD) (t : Fin cfg0.N) (d) : (dat0 V c).before 0 t d = iblk0 V c 0 t :=
  before0_0_of V (dat0 V c) (A_eq0 V c 0) (after0_0 V c) t d

/-- What the launch hands the region is the invariant before the first point, -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, Phi0_even V c 0 _ rfl]

/-- and the invariant after the last point gives it back: the grid has an even number of points. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl,
    Phi0_even V c _ _ (by rw [Fin.val_last, show cfg0.N = 16 from N_0])]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds its block. At an even point the invariant hands the body the
    scratch at anything and takes it back at the zero block plus the block's row sums; the output's buffer goes back
    as it came. At an odd point the invariant hands the body the scratch at what the even point before left and takes
    it back at some contents; the output's buffer, whatever it held, is left at the finalized sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [Phi_castSucc, Phi_succ]
  rw [show (dat0 V c).leavesExact 0 t = owns (c : Thread nD τ) (st0_0 t) fullShare ((dat0 V c).after 0 t) from by
    unfold Dat.leavesExact; rw [liveAt0_0 t], after0_0]
  by_cases h0 : t.val % 2 = 0
  · have h1 : ¬t.val % 2 = 1 := by omega
    rw [Dat.leavesExact_idle (dat0 V c) 1 t (idleAt0_1_even t h0) (noFlush0_1_even t h0)]
    rw [Phi0_even V c _ _ h0, Phi0_succ_even V c t h0, acc0_even V c t h0, scopedRest0_split]
    iintro ⟨⟨HS0, HR⟩, Ho, ⟨%d0, H0⟩, ⟨%d1, H1⟩⟩
    iapply (sound_kernel0_A c Set.univ (grid0.coords t) _ _ _ _ _ _ ((hcond0_0 t).mpr h0) (fun h => h1 ((hcond0_1 t).mp h)) (iblk0 V c 0 t) _ _)
    isplitl [H0]; · iexact H0
    isplitl [H1]; · iexact H1
    isplitl [HS0]; · iexact HS0
    iintro ⟨H0, H1, HS0⟩
    isplitl [HS0 HR]
    · isplitl [HS0]; · iexact HS0
      iexact HR
    isplitl [Ho]; · iexact Ho
    isplitl [H0]; · iexact H0
    iexists _; iexact H1
  · have h1 : t.val % 2 = 1 := by omega
    rw [show (dat0 V c).leavesExact 1 t = owns (c : Thread nD τ) (st0_1 t) fullShare ((dat0 V c).after 1 t) from by
      unfold Dat.leavesExact; rw [liveAt0_1_odd t h1], after0_1]
    rw [Phi0_odd V c _ _ h1, Phi0_even V c _ _ (by omega : (t.val + 1) % 2 = 0), acc0_odd V c t h1,
      acc0_even V c ⟨t.val - 1, _⟩ (by dsimp only; omega), scopedRest0_split]
    iintro ⟨⟨HS0, HR⟩, Ho, ⟨%d0, H0⟩, ⟨%d1, H1⟩⟩
    iapply (sound_kernel0_B c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 HR]
    · isplitl [HS0]; · iexists _; iexact HS0
      iexact HR
    isplitl [Ho]; · iexact Ho
    isplitl [H0]; · iexact H0
    iexact H1

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Region0

end
-- ==== Proof.Kernel.Region1.lean ====
import proofs.«141870_j36000415875584_2_alg».proof.Proof.Gen.Kernel.Launch
import proofs.«141870_j36000415875584_2_alg».proof.Proof.Gen.Kernel.Skeleton
import proofs.«141870_j36000415875584_2_alg».proof.Proof.Gen.Kernel.Points
import Idealize.ShloMosaic.Lib.Pipeline.FrameBody
import Idealize.ShloMosaic.Lib.Pipeline.Value
import Idealize.ShloMosaic.Lib.Tactic

/-! # The second pipelined call: each 256 x 512 tile scaled by its rows' and its columns' factors

The grid has 8 x 4 points; point `t` is the tile of row block `t / 4` and column block `t % 4` of every batch. The body
reads the tile and the two blocks of factors whole and overwrites the output tile: with the identity added first on the
tiles that meet the diagonal, without it on the others. This file states the proof data of that pipeline at arbitrary
entry contents and proves that the body meets its obligation at every grid point. -/

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (qs : Fin cfg1.W → PosShare TreeShare)

/-! ## The windows' blocks -/

/-- Window `w`'s block at grid point `t`: the part of the window's array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches
    it or not (a point that does not fetch has the block index of the point before it): window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the row scale: fetched only at the first point of each row of the grid, and the same
    block at the four points of a row. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the column scale. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two control cases, in closed form over the grid

Point `t` of the 8 x 4 grid is the tile of row block `t / 4` (256 rows) and column block `t % 4` (512 columns).
The tile meets the diagonal exactly when its column block is half its row block, rounded down. -/

/-- The first conditional (the tile meets the diagonal) is taken exactly at the points with `t % 4 = t / 4 / 2`. -/
theorem hcond1 : ∀ t : Fin cfg1.N, k1_cond1 (grid1.coords t) = 1#1 ↔ t.val % 4 = t.val / 4 / 2 :=
  (by decide +kernel : ∀ t : Fin grid1.N, k1_cond1 (grid1.coords t) = 1#1 ↔ t.val % 4 = t.val / 4 / 2)

/-- The second conditional is its negation. -/
theorem hcond2 : ∀ t : Fin cfg1.N, k1_cond2 (grid1.coords t) = 1#1 ↔ ¬ t.val % 4 = t.val / 4 / 2 :=
  (by decide +kernel : ∀ t : Fin grid1.N, k1_cond2 (grid1.coords t) = 1#1 ↔ ¬ t.val % 4 = t.val / 4 / 2)

/-- Exactly one of the two conditionals stores the output tile at every point: the output window is never idle. -/
theorem liveAt1_3 : ∀ t : Fin cfg1.N, cfg1.idle 3 (grid1.coords t) = false := by decide +kernel

/-- The zero offsets of the body's whole-buffer accesses. -/
theorem hz3 : (![0, 0, 0] : Fin 3 → Nat) = fun _ => 0 := by funext a; fin_cases a <;> rfl
theorem hz2 : (![0, 0] : Fin 2 → Nat) = fun _ => 0 := by funext a; fin_cases a <;> rfl

/-! ## The body's triple, one per control case -/

set_option maxHeartbeats 1000000 in
/-- On a tile that meets the diagonal the body reads its three inputs whole, and overwrites the whole output buffer
    (whatever it held) with the diagonal payload of the three. -/
theorem sound_kernel1_A (c : Dev nD) (E : Set ℕ) (i : grid1.Coords)
    (arg2 : Memref sig .tc .vmem S8x256x512 .f32) (harg2 : arg2.IsWhole)
    (arg3 : Memref sig .tc .vmem S8x256 .f32) (harg3 : arg3.IsWhole)
    (arg4 : Memref sig .tc .vmem S8x512 .f32) (harg4 : arg4.IsWhole)
    (arg5 : Memref sig .tc .vmem S8x256x512 .f32) (harg5 : arg5.IsWhole)
    (hc1 : k1_cond1 i = 1#1) (hc2 : ¬ k1_cond2 i = 1#1)
    (x0 : Vec F S8x256x512 .f32) (x1 : Vec F S8x256 .f32) (x2 : Vec F S8x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 i x0 x1 x2)) -∗ K ⟨⟩))
      ⊢ wp frame (wpE (defs₀ (F := F)) Variants.none c none) E
          (cc1__norm_kernel i arg2 harg2 arg3 harg3 arg4 harg4 arg5 harg5) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz3 inb_S8x256x512_S8x256x512_0_0_0 y⟩),
    View.canon_unit_zero hz3]
  simp only [View.readAt_eq_ld, View.ld_unit_zero (S := S8x256x512) hz3, View.ld_unit_zero (S := S8x256) hz2, View.ld_unit_zero (S := S8x512) hz2]

set_option maxHeartbeats 1000000 in
/-- On a tile off the diagonal the body reads its three inputs whole, and overwrites the whole output buffer with
    the plain payload of the three. -/
theorem sound_kernel1_B (c : Dev nD) (E : Set ℕ) (i : grid1.Coords)
    (arg2 : Memref sig .tc .vmem S8x256x512 .f32) (harg2 : arg2.IsWhole)
    (arg3 : Memref sig .tc .vmem S8x256 .f32) (harg3 : arg3.IsWhole)
    (arg4 : Memref sig .tc .vmem S8x512 .f32) (harg4 : arg4.IsWhole)
    (arg5 : Memref sig .tc .vmem S8x256x512 .f32) (harg5 : arg5.IsWhole)
    (hc1 : ¬ k1_cond1 i = 1#1) (hc2 : k1_cond2 i = 1#1)
    (x0 : Vec F S8x256x512 .f32) (x1 : Vec F S8x256 .f32) (x2 : Vec F S8x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay4 x0 x1 x2)) -∗ K ⟨⟩))
      ⊢ wp frame (wpE (defs₀ (F := F)) Variants.none c none) E
          (cc1__norm_kernel i arg2 harg2 arg3 harg3 arg4 harg4 arg5 harg5) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz3 inb_S8x256x512_S8x256x512_0_0_0 y⟩),
    View.canon_unit_zero hz3]
  simp only [View.readAt_eq_ld, View.ld_unit_zero (S := S8x256x512) hz3, View.ld_unit_zero (S := S8x256) hz2, View.ld_unit_zero (S := S8x512) hz2]

/-! ## What the body leaves in the output tile -/

/-- The output tile after the body at point `t`, from the three input blocks there: on a tile that meets the
    diagonal the scaled tile with the identity added on the diagonal, elsewhere the scaled tile. -/
def out1_3 (c : Dev nD) (t : Fin cfg1.N) : Vec F S8x256x512 .f32 :=
  if k1_cond1 (grid1.coords t) = 1#1 then k1_pay3 (grid1.coords t) (iblk1 V c 0 t) (iblk1 V c 1 t) (iblk1 V c 2 t)
  else k1_pay4 (iblk1 V c 0 t) (iblk1 V c 1 t) (iblk1 V c 2 t)

/-! ## The pipeline's proof data -/

/-- The proof data of the second pipeline on core `c`: the arrays as the region finds them; after the body at point
    `t` each input's buffer at its block and the output's at `out1_3`; the invariant the core's other scoped buffers,
    which the body never touches; the input arrays held at the shares `qs`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ _ := Pipeline.scopedRest (Ix := Unit) (Name := ℕ) (U := UR sig nD τ) (Lvl := ℕ) (Val := Elt F) spec1 c
  q := qs
  owed _ := 0

theorem A_eq1 (c : Dev nD) (w : Fin cfg1.W) : (dat1 V qs c).A w = V c (Pipeline.arrRef spec1 w) := by
  dsimp only [dat1]

theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = out1_3 V c t := by dsimp only [dat1]

theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d

/-! ## The body obligation, at a generic point -/

def bodyPre1 (c : Dev nD) (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d)))

def bodyPost1 (c : Dev nD) (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ (dat1 V qs c).leavesExact 3 t)

set_option maxHeartbeats 1000000 in
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2]
  rw [show (dat1 V qs c).Φ t.succ = (dat1 V qs c).Φ t.castSucc from rfl,
    show (dat1 V qs c).owesAt () t.succ = (dat1 V qs c).owesAt () t.castSucc from rfl,
    after1_0, after1_1, after1_2,
    show (dat1 V qs c).leavesExact 3 t = owns (c : Thread nD τ) (st1_3 t) fullShare ((dat1 V qs c).after 3 t) from by
      unfold Dat.leavesExact; rw [liveAt1_3 t],
    after1_3]
  unfold out1_3
  by_cases h : t.val % 4 = t.val / 4 / 2
  · have hc1 : k1_cond1 (grid1.coords t) = 1#1 := (hcond1 t).mpr h
    have hc2 : ¬ k1_cond2 (grid1.coords t) = 1#1 := fun h' => (hcond2 t).mp h' h
    rw [if_pos hc1]
    iintro ⟨HΦ, Ho, ⟨%d0, H0⟩, ⟨%d1, H1⟩, ⟨%d2, H2⟩, ⟨%d3, H3⟩⟩
    iapply (sound_kernel1_A c Set.univ (grid1.coords t) _ _ _ _ _ _ _ _ hc1 hc2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc1 : ¬ k1_cond1 (grid1.coords t) = 1#1 := fun h' => h ((hcond1 t).mp h')
    have hc2 : k1_cond2 (grid1.coords t) = 1#1 := (hcond2 t).mpr h
    rw [if_neg hc1]
    iintro ⟨HΦ, Ho, ⟨%d0, H0⟩, ⟨%d1, H1⟩, ⟨%d2, H2⟩, ⟨%d3, H3⟩⟩
    iapply (sound_kernel1_B c Set.univ (grid1.coords t) _ _ _ _ _ _ _ _ hc1 hc2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem body_obligation1 (c : Dev nD) : BodyObligation (dat1 (F := F) V qs c) (defs₀ (F := F)) Variants.none () Set.univ := fun t => by
  rw [bigSep_W1, bigSep_W1]
  exact sound_body1 V qs c t

end Cert.Kernel.Region1

end
-- ==== Proof.Kernel.Run.lean ====
import proofs.«141870_j36000415875584_2_alg».proof.Proof.Gen.Kernel.Launch
import proofs.«141870_j36000415875584_2_alg».proof.Proof.Gen.Kernel.Points
import proofs.«141870_j36000415875584_2_alg».proof.Proof.Gen.Kernel.Skeleton
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Tactic
import proofs.«141870_j36000415875584_2_alg».proof.Proof.Kernel.Region0
import proofs.«141870_j36000415875584_2_alg».proof.Proof.Kernel.Region1

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: region 0, one host copy, region 1

Between two items every unscoped buffer of the core (`main_arg0`, `main_v0`, `main_v1`) is held whole at a named
valuation: `W0` at launch; `W1` after region 0 (its output array `main_v0` at what the write-backs leave);
`W2` after the host copy of `main_arg0` into `main_v1`; `W3` after region 1 (`main_v1` at what its write-backs
leave). Region 1 reads `main_v0` through TWO input windows (a row block and a column block of the same array): the
array's full share is dealt to them as its left and right halves at entry and joined again at exit. -/

variable (m : (ℓ : Loc nD τ sig) → Buf (Elt F) ℓ) (ρ : Dev nD → PrngReg)

/-! ## The three unscoped buffers, one by one -/

theorem unscopedBufs_three (c : Dev nD) (V : (b : Ref sig .tc) → Buf (Elt F) ((c : Thread nD τ).loc b)) :
    (unscopedBufs c V : sProp 𝕄) = iprop((((c : Thread nD τ).loc main_arg0) ↦{fullShare} V main_arg0)
      ∗ (((c : Thread nD τ).loc main_v0) ↦{fullShare} V main_v0) ∗ (((c : Thread nD τ).loc main_v1) ↦{fullShare} V main_v1)) := by
  unfold unscopedBufs
  exact bigSep_eq_bigSepL_of_eq [main_arg0, main_v0, main_v1] (by decide) (by decide) _

/-- The shares region 1's windows hold their arrays at: the two windows on `main_v0` a half each. -/
abbrev qs1 : Fin cfg1.W → PosShare TreeShare := ![fullShare, fullShare.left, fullShare.right, fullShare]

/-- Region 1's arrays, window by window, at those shares. -/
theorem arrays1_eq (c : Dev nD) (dat : Dat τ (Elt F) Unit ℕ (UR sig nD τ) ℕ cfg1 c) (hq : dat.q = qs1)
    (G : (w : Fin cfg1.W) → Buf (Elt F) ((cfg1.win w).arr.view.loc (c.tc : Thread nD τ))) :
    (dat.arrays G : sProp 𝕄) = iprop((((c : Thread nD τ).loc main_arg0) ↦{fullShare} G 0)
      ∗ (((c : Thread nD τ).loc main_v0) ↦{fullShare.left} G 1) ∗ (((c : Thread nD τ).loc main_v0) ↦{fullShare.right} G 2)
      ∗ (((c : Thread nD τ).loc main_v1) ↦{fullShare} G 3)) := by
  unfold Dat.arrays
  rw [bigSep_W1]
  unfold Dat.share
  rw [hq, (arr_whole1 0).set_eq_univ, (arr_whole1 1).set_eq_univ, (arr_whole1 3).set_eq_univ]
  rfl

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (Region0.dat0 (V0 m ρ) c).arrAt w cfg0.N
theorem W1_arr (c : Dev nD) (w : Fin cfg0.W) :
    W1 m ρ c (Proc.devRef .tc (Pipeline.arrRef spec0 w)) = (Region0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Region0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host copy. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- Region 1's proof data, at its entry contents and the shares above. -/
abbrev d1 (c : Dev nD) : Dat τ (Elt F) Unit ℕ (UR sig nD τ) ℕ cfg1 c := Region1.dat1 (V2 m ρ) qs1 c

/-- After region 1: `main_v1` at what the write-backs leave, the other two buffers as entered. -/
def W3 (c : Dev nD) : Valuation τ sig (Elt F) :=
  Function.update (W2 m ρ c) (Proc.devRef .tc main_v1) ((d1 m ρ c).arrAt 3 cfg1.N)
abbrev V3 : (c : Dev nD) → (b : Ref sig .tc) → Buf (Elt F) ((c : Thread nD τ).loc b) := fun c b => W3 m ρ c b
theorem W3_main_v1 (c : Dev nD) : W3 m ρ c (Proc.devRef .tc main_v1) = (d1 m ρ c).arrAt 3 cfg1.N := by
  unfold W3; exact Function.update_self ..
theorem W3_of_ne (c : Dev nD) (b : Ref sig .tc) (hb : b ≠ main_v1) : W3 m ρ c (Proc.devRef .tc b) = W2 m ρ c (Proc.devRef .tc b) := by
  unfold W3; exact Function.update_of_ne (StableHlo.devRef_ne_of_ne hb) ..

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Region0.dat0 (V0 m ρ) c
  | ⟨1, _⟩ => fun c => d1 m ρ c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as items of the run -/

set_option backward.isDefEq.respectTransparency.types false in
/-- Region 0 over the thread state: entered with every unscoped buffer at `W0`, left at `W1`. Its two arrays are
    distinct, so they are split out of the unscoped buffers and put back whole; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := BI.emp
  Y _ := BI.emp
  Z c := iprop(Pipeline.unscopedRest (Ix := Unit) (Name := ℕ) (U := UR sig nD τ) (Lvl := ℕ) spec0 c (V0 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (Region0.dat0 (V0 m ρ) c).Φ 0 from rfl]
    iintro ⟨-, -, Hr⟩
    iapply (Region0.hin0 (V0 m ρ) c)
    iexact Hr
  hout c := by
    rw [Pipeline.ownSems0_none, show (pdats m ρ 0 c).Φ (Fin.last _) = (Region0.dat0 (V0 m ρ) c).Φ (Fin.last cfg0.N) from rfl]
    iintro Hr
    isplitr; · iempintro
    isplitr; · iempintro
    iapply (Region0.hout0 (V0 m ρ) c)
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- What region 1's arrays hold at its exit: the three inputs as entered, the output at what the write-backs leave. -/
theorem arr1_in0 (c : Dev nD) : (pdats m ρ 1 c).arrAt 0 (Pipeline.pin (pcfgs (F := F)) adm 1).N = V3 m ρ c main_arg0 :=
  ((d1 m ρ c).arrAt_in 0 rfl _).trans (W3_of_ne m ρ c main_arg0 (by decide)).symm
theorem arr1_in1 (c : Dev nD) : (pdats m ρ 1 c).arrAt 1 (Pipeline.pin (pcfgs (F := F)) adm 1).N = V3 m ρ c main_v0 :=
  ((d1 m ρ c).arrAt_in 1 rfl _).trans (W3_of_ne m ρ c main_v0 (by decide)).symm
theorem arr1_in2 (c : Dev nD) : (pdats m ρ 1 c).arrAt 2 (Pipeline.pin (pcfgs (F := F)) adm 1).N = V3 m ρ c main_v0 :=
  ((d1 m ρ c).arrAt_in 2 rfl _).trans (W3_of_ne m ρ c main_v0 (by decide)).symm
theorem arr1_out (c : Dev nD) : (pdats m ρ 1 c).arrAt 3 (Pipeline.pin (pcfgs (F := F)) adm 1).N = V3 m ρ c main_v1 :=
  (W3_main_v1 m ρ c).symm

set_option backward.isDefEq.respectTransparency.types false in
/-- Region 1 over the thread state: entered with every unscoped buffer at `W2`, left at `W3`. All three unscoped
    buffers are arrays of its windows; `main_v0` is read through two windows, each holding a half of its share. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Region1.body_obligation1 (V2 m ρ) qs1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X _ := BI.emp
  Y _ := BI.emp
  Z c := iprop(∃ r, prngReg c r)
  hentry c := by
    rw [Pipeline.ownSems0_none, ← Pipeline.unscopedBufs_held (Ix := Unit) (Name := ℕ) (U := UR sig nD τ) (Lvl := ℕ) c (W2 m ρ c),
      unscopedBufs_three, arrays1_eq c (pdats m ρ 1 c) rfl]
    iintro ⟨⟨⟨Ha, Hv0, Hv1⟩, Hp, HO⟩, -, -⟩
    ihave Hs := (pointsTo_share (PosShare.mem_left_op_right fullShare)).1 $$ Hv0
    icases Hs with ⟨Hl, Hr⟩
    imodintro
    isplitl [Ha Hl Hr Hv1]
    · isplitl [Ha]; · iexact Ha
      isplitl [Hl]; · iexact Hl
      isplitl [Hr]; · iexact Hr
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hp
  hin c := by
    rw [show (pdats m ρ 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m ρ 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    unfold Tₙ
    rw [arrays1_eq c (pdats m ρ 1 c) rfl, ← Pipeline.unscopedBufs_held (Ix := Unit) (Name := ℕ) (U := UR sig nD τ) (Lvl := ℕ) c (W3 m ρ c),
      unscopedBufs_three, arr1_in0, arr1_in1, arr1_in2, arr1_out]
    iintro ⟨⟨Ha, Hl, Hr, Hv1⟩, HO, -, Hp⟩
    ihave Hv0 := (pointsTo_share (PosShare.mem_left_op_right fullShare)).2 $$ [Hl Hr]
    · isplitl [Hl]; · iexact Hl
      iexact Hr
    imodintro
    isplitl [Ha Hv0 Hv1 Hp]
    · isplitl [Ha Hv0 Hv1]
      · isplitl [Ha]; · iexact Ha
        isplitl [Hv0]; · iexact Hv0
        iexact Hv1
      iexact Hp
    unfold Pipeline.Dat.owesAt Pipeline.owesWithin
    icases HO with ⟨%W, -, HO⟩; iexists W; iexact HO

/-! ## @main as the run of its items, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer holds what the last valuation `W3` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## Reading the last valuation -/

/-- The host copy writes `main_v1` only. -/
theorem W2_of_ne (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- The argument reaches the end as launched: region 0 reads it, the host copy reads it, region 1 reads it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((Region0.dat0 (V0 m ρ) c).arrAt_in 0 rfl _).trans (Region0.A_eq0 (V0 m ρ) c 0))
    _ = m ((c : Thread nD τ).loc main_arg0) := rfl

/-- What region 1 finds in `main_arg0`: the launch contents. -/
theorem V2_main_arg0 (c : Dev nD) : V2 m ρ c main_arg0 = m ((c : Thread nD τ).loc main_arg0) :=
  ((W3_of_ne m ρ c main_arg0 (by decide)).symm).trans (W3_main_arg0 m ρ c)

/-- What region 1 finds in `main_v0`: what region 0's write-backs left. -/
theorem V2_main_v0 (c : Dev nD) : V2 m ρ c main_v0 = (Region0.dat0 (V0 m ρ) c).arrAt 1 cfg0.N :=
  (W2_of_ne m ρ c main_v0 (by decide)).trans (W1_arr m ρ c 1)

/-- THE FRAME, at any float instance: every weakly fair execution terminates, nothing faults, the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run_all m ρ)

/-- THE RUN WITH ITS RESULT NAMED: the result array ends at what region 1's write-backs leave, the argument as launched. -/
theorem run_result : θ_run defs (onTc (τ := τ) (main (F := F))) ⟨m, fun _ => 0, ρ⟩ (fun r => ∀ c : Dev nD,
      r.2.mem ((c.tc : Thread nD τ).loc main_v1) = (d1 m ρ c).arrAt 3 cfg1.N
      ∧ r.2.mem ((c.tc : Thread nD τ).loc main_arg0) = m ((c.tc : Thread nD τ).loc main_arg0)) :=
  (θ_run defs _ _).mono (fun _ h c => ⟨(h c _ (mem_uc main_v1 (by decide))).trans (W3_main_v1 m ρ c),
    (h c _ (mem_uc main_arg0 (by decide))).trans (W3_main_arg0 m ρ c)⟩) (run_all m ρ)

end Cert.Kernel.Run

end
-- ==== Proof.KernelIdeal.Region0.lean ====
import proofs.«141870_j36000415875584_2_alg».proof.Proof.Gen.KernelIdeal.Launch
import proofs.«141870_j36000415875584_2_alg».proof.Proof.Gen.KernelIdeal.Points
import proofs.«141870_j36000415875584_2_alg».proof.Proof.Gen.KernelIdeal.Skeleton
import Idealize.ShloMosaic.Lib.Pipeline.FrameBody
import Idealize.ShloMosaic.Lib.Pipeline.Value
import Idealize.ShloMosaic.Lib.Tactic

/-!
# The first pipelined call: row sums accumulated over two column chunks, then finalized

The grid has 8 x 2 points; point `t` has coordinates `(t / 2, t % 2)`. At every point the body adds the row sums of
the [8,256,1024] input block to an [8,256] scratch block that it carries from point to point. At the points with
`t % 2 = 0` it first resets the scratch to zero and leaves the output block untouched; at the points with `t % 2 = 1`
it finalizes the scratch into the output block, which is then written back. So after an even point `t` the scratch
holds `0 + rowsum (block t)`, after the odd point `t + 1` it holds `(0 + rowsum (block t)) + rowsum (block (t + 1))`,
and the output block written back at the odd point is the finalization of that.

This file states the proof data of that pipeline at arbitrary entry contents `V`, generically in the float
instance, and proves that the body meets its obligation at every grid point.
-/

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The first condition of the body: the second grid coordinate is 0. -/
abbrev cond0_0 (i : grid0.Coords) : Prop := (Scalar.cmpi .ne (Scalar.extui (Scalar.cmpi .eq (BitVec.ofNat 32 (i 1).val) 0#32)) 0#32) = 1#1
/-- It holds exactly at the even points. -/
theorem hcond0_0 : ∀ t : Fin cfg0.N, cond0_0 (grid0.coords t) ↔ t.val % 2 = 0 :=
  (by decide +kernel : ∀ t : Fin grid0.N, cond0_0 (grid0.coords t) ↔ t.val % 2 = 0)
/-- The second condition of the body: the second grid coordinate is 1. -/
abbrev cond0_1 (i : grid0.Coords) : Prop := k0_cond2 i = 1#1
/-- It holds exactly at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- The input window is stored into nowhere, so it is never idle. -/
theorem liveAt0_0 : ∀ t : Fin cfg0.N, cfg0.idle 0 (grid0.coords t) = false :=
  (by decide +kernel : ∀ t : Fin grid0.N, idle0 0 (grid0.coords t) = false)
/-- At the even points the body stores nothing into the output block: the window is idle there, -/
theorem idleAt0_1_even : ∀ t : Fin cfg0.N, t.val % 2 = 0 → cfg0.idle 1 (grid0.coords t) = true :=
  (by decide +kernel : ∀ t : Fin grid0.N, t.val % 2 = 0 → idle0 1 (grid0.coords t) = true)
/-- and the block is not written back there. -/
theorem noFlush0_1_even (t : Fin cfg0.N) (h : t.val % 2 = 0) : (cfg0.win 1).flush t = false :=
  Bool.eq_false_iff.mpr fun hf => by have := (flush0_1 t).mp hf; omega
/-- At the odd points the body stores the output block. -/
theorem liveAt0_1_odd : ∀ t : Fin cfg0.N, t.val % 2 = 1 → cfg0.idle 1 (grid0.coords t) = false :=
  (by decide +kernel : ∀ t : Fin grid0.N, t.val % 2 = 1 → idle0 1 (grid0.coords t) = false)

/-! ## The body on arbitrary whole buffers, one statement per control case -/

theorem hz2 : (![0, 0] : Fin 2 → Nat) = fun _ => 0 := funext fun a => by fin_cases a <;> rfl
theorem hz3 : (![0, 0, 0] : Fin 3 → Nat) = fun _ => 0 := funext fun a => by fin_cases a <;> rfl

/-- A list of stores whose last one fills the whole [8,256] buffer covers it. -/
theorem cover_last (p0 : Vec F S8x256 .f32) (L : List (View.Piece (Elt F) S8x256 .f32)) (y : S8x256.Idx) :
    ∃ pc ∈ ((⟨Rect.unit (s := S8x256) ![0, 0] S8x256.size inb_S8x256_S8x256_0_0, p0⟩ : View.Piece (Elt F) S8x256 .f32) :: L), y ∈ pc.1.set :=
  ⟨_, List.mem_cons_self, View.mem_set_unit_zero hz2 inb_S8x256_S8x256_0_0 y⟩

set_option maxHeartbeats 1000000 in
/-- The body at a point whose second coordinate is 0: the scratch, whatever it held, is reset to the zero block and
    then holds the zero block plus the row sums of the input block; the output's buffer is not touched. -/
theorem sound_kernel0_A (c : Dev nD) (E : Set ℕ) (i : grid0.Coords) (arg2 : Memref sig .tc .vmem S8x256x1024 .f32) (harg2 : arg2.IsWhole) (arg3 : Memref sig .tc .vmem S8x256 .f32) (harg3 : arg3.IsWhole) (arg4 : Memref sig .tc .vmem S8x256 .f32) (harg4 : arg4.IsWhole)
    (hc0 : cond0_0 i) (hc1 : ¬cond0_1 i)
    (x0 : Vec F S8x256x1024 .f32) (xi1 : Vec F S8x256 .f32) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1 ∗ owns (c : Thread nD τ) arg4 fullShare (k0_pay2 x0 k0_pay1)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%ds0, %fs0, -, HS0⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS0
  ipureintro
  rw [View.read_writes_eq_canon _ _ _ (cover_last _ _)]
  rw [View.canon_cons_unit_zero (S := S8x256) hz2]
  sl_unfold_words
  rw [View.readCov_unit_zero (S := S8x256) _ hz2]
  simp only [View.readAt_eq_ld, harg2.read_unread, View.ld_unit_zero (S := S8x256x1024) hz3]

set_option maxHeartbeats 1000000 in
/-- The body at a point whose second coordinate is 1: the scratch, holding `xs0`, ends holding `xs0` plus the row sums
    of the input block, and the output's buffer, whatever it held, ends holding the finalized block of that. -/
theorem sound_kernel0_B (c : Dev nD) (E : Set ℕ) (i : grid0.Coords) (arg2 : Memref sig .tc .vmem S8x256x1024 .f32) (harg2 : arg2.IsWhole) (arg3 : Memref sig .tc .vmem S8x256 .f32) (harg3 : arg3.IsWhole) (arg4 : Memref sig .tc .vmem S8x256 .f32) (harg4 : arg4.IsWhole)
    (hc0 : ¬cond0_0 i) (hc1 : cond0_1 i)
    (x0 : Vec F S8x256x1024 .f32) (xs0 : Vec F S8x256 .f32) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 x0 xs0)) ∗ owns (c : Thread nD τ) arg4 fullShare (k0_pay2 x0 xs0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [View.read_writes_eq_canon _ _ _ (cover_last _ _)]
    rw [View.canon_unit_zero (S := S8x256) hz2]
    sl_unfold_words
    rw [View.readCov_unit_zero (S := S8x256) _ hz2]
    simp only [View.readAt_eq_ld, harg2.read_unread, harg4.read_unread, View.ld_unit_zero (S := S8x256x1024) hz3, View.ld_unit_zero (S := S8x256) hz2]
  iexists _; isplitr
  swap; · iexact HS0
  ipureintro
  sl_unfold_words
  rw [View.read_writes_eq_canon _ _ _ (cover_last _ _)]
  rw [View.canon_unit_zero (S := S8x256) hz2]
  simp only [View.readAt_eq_ld, harg2.read_unread, harg4.read_unread, View.ld_unit_zero (S := S8x256x1024) hz3, View.ld_unit_zero (S := S8x256) hz2]

/-! ## The proof data, at the contents `V` the buffers hold when the region is entered -/

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose input array is
    `V`'s and whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The scratch block after point `t`: at an even point the zero block plus the row sums of the point's input block;
    at an odd point that of the point before plus the row sums of this point's input block. -/
def acc0 (c : Dev nD) (t : Fin cfg0.N) : Vec F S8x256 .f32 :=
  if t.val % 2 = 0 then k0_pay2 (iblk0 V c 0 t) k0_pay1
  else k0_pay2 (iblk0 V c 0 t) (k0_pay2 (iblk0 V c 0 ⟨t.val - 1, Nat.lt_of_le_of_lt (Nat.sub_le _ _) t.isLt⟩) k0_pay1)

theorem acc0_even (c : Dev nD) (t : Fin cfg0.N) (h : t.val % 2 = 0) :
    acc0 V c t = k0_pay2 (iblk0 V c 0 t) k0_pay1 := if_pos h

theorem acc0_odd (c : Dev nD) (t : Fin cfg0.N) (h : t.val % 2 = 1) :
    acc0 V c t = k0_pay2 (iblk0 V c 0 t) (k0_pay2 (iblk0 V c 0 ⟨t.val - 1, Nat.lt_of_le_of_lt (Nat.sub_le _ _) t.isLt⟩) k0_pay1) :=
  if_neg (by omega)

/-- The scratch operand: a whole scoped buffer of the kernel's own. -/
abbrev scM0 : Memref sig .tc .vmem S8x256 .f32 := Memref.whole cc0_scratch0

/-- The core's scoped buffers that are neither a staging buffer of this call nor its scratch, at some contents each:
    the body never touches them. -/
abbrev others0 (c : Dev nD) : sProp 𝕄 :=
  Pipeline.scopedRestBut (Ix := Unit) (Name := ℕ) (U := UR sig nD τ) (Lvl := ℕ) (Val := Elt F) spec0 c [cc0_scratch0]

/-- The scoped buffers no window stages are the scratch, at some contents, and the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  rw [Pipeline.scopedRest_split_of_list spec0 c [cc0_scratch0] (by decide) (by decide)]
  simp only [bigSepL_singleton, scM0, owns_whole]; try rfl

/-- The invariant before position `n`: before an even position (the body is about to reset the scratch, or the grid is
    done) the scoped buffers no window stages, each at some contents; before an odd position the scratch at what the
    even point before left in it, and the others. -/
def Phi0 (c : Dev nD) : (n : ℕ) → n ≤ cfg0.N → sProp 𝕄
  | 0, _ => Pipeline.scopedRest (Ix := Unit) (Name := ℕ) (U := UR sig nD τ) (Lvl := ℕ) (Val := Elt F) spec0 c
  | n + 1, hn =>
    if (n + 1) % 2 = 1 then iprop(owns (c : Thread nD τ) scM0 fullShare (acc0 V c ⟨n, hn⟩) ∗ others0 c)
    else Pipeline.scopedRest (Ix := Unit) (Name := ℕ) (U := UR sig nD τ) (Lvl := ℕ) (Val := Elt F) spec0 c

theorem Phi0_even (c : Dev nD) (n : ℕ) (hn : n ≤ cfg0.N) (h : n % 2 = 0) :
    Phi0 V c n hn = Pipeline.scopedRest (Ix := Unit) (Name := ℕ) (U := UR sig nD τ) (Lvl := ℕ) (Val := Elt F) spec0 c := by
  cases n with
  | zero => rfl
  | succ n => exact if_neg (by omega)

theorem Phi0_odd (c : Dev nD) (n : ℕ) (hn : n ≤ cfg0.N) (h : n % 2 = 1) :
    Phi0 V c n hn = iprop(owns (c : Thread nD τ) scM0 fullShare (acc0 V c ⟨n - 1, by omega⟩) ∗ others0 c) := by
  cases n with
  | zero => exact absurd h (by decide)
  | succ n => exact if_pos h

/-- After point `t` (before position `t + 1`), for an even `t`. -/
theorem Phi0_succ_even (c : Dev nD) (t : Fin cfg0.N) (h : t.val % 2 = 0) :
    Phi0 V c (t.val + 1) t.isLt = iprop(owns (c : Thread nD τ) scM0 fullShare (acc0 V c t) ∗ others0 c) :=
  if_pos (by omega)

/-- The proof data of the pipeline on core `c`: the arrays as the region finds them; after the body the input's
    buffer at its block and the output's at the finalized scratch; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t) := by dsimp only [dat0]

/-- The invariant at a point's start and at its end, restated at the point's position. -/
theorem Phi_castSucc (c : Dev nD) (t : Fin cfg0.N) :
    (dat0 V c).Φ t.castSucc = Phi0 V c t.val (Nat.le_of_lt t.isLt) := by
  dsimp only [dat0]; simp only [Fin.coe_castSucc]
theorem Phi_succ (c : Dev nD) (t : Fin cfg0.N) :
    (dat0 V c).Φ t.succ = Phi0 V c (t.val + 1) t.isLt := rfl

/-- The input's current buffer holds its block at every point. -/
theorem before0_0 (c : Dev nD) (t : Fin cfg0.N) (d) : (dat0 V c).before 0 t d = iblk0 V c 0 t :=
  before0_0_of V (dat0 V c) (A_eq0 V c 0) (after0_0 V c) t d

/-- What the launch hands the region is the invariant before the first point, -/
theorem hin0 (c : Dev nD) :
    (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, Phi0_even V c 0 _ rfl]

/-- and the invariant after the last point gives it back: the grid has an even number of points. -/
theorem hout0 (c : Dev nD) :
    (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl,
    Phi0_even V c _ _ (by rw [Fin.val_last, show cfg0.N = 16 from N_0])]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds its block. At an even point the invariant hands the body the
    scratch at anything and takes it back at the zero block plus the block's row sums; the output's buffer goes back
    as it came. At an odd point the invariant hands the body the scratch at what the even point before left and takes
    it back at some contents; the output's buffer, whatever it held, is left at the finalized sum. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [Phi_castSucc, Phi_succ]
  rw [show (dat0 V c).leavesExact 0 t = owns (c : Thread nD τ) (st0_0 t) fullShare ((dat0 V c).after 0 t) from by
    unfold Dat.leavesExact; rw [liveAt0_0 t], after0_0]
  by_cases h0 : t.val % 2 = 0
  · have h1 : ¬t.val % 2 = 1 := by omega
    rw [Dat.leavesExact_idle (dat0 V c) 1 t (idleAt0_1_even t h0) (noFlush0_1_even t h0)]
    rw [Phi0_even V c _ _ h0, Phi0_succ_even V c t h0, acc0_even V c t h0, scopedRest0_split]
    iintro ⟨⟨HS0, HR⟩, Ho, ⟨%d0, H0⟩, ⟨%d1, H1⟩⟩
    iapply (sound_kernel0_A c Set.univ (grid0.coords t) _ _ _ _ _ _ ((hcond0_0 t).mpr h0) (fun h => h1 ((hcond0_1 t).mp h)) (iblk0 V c 0 t) _ _)
    isplitl [H0]; · iexact H0
    isplitl [H1]; · iexact H1
    isplitl [HS0]; · iexact HS0
    iintro ⟨H0, H1, HS0⟩
    isplitl [HS0 HR]
    · isplitl [HS0]; · iexact HS0
      iexact HR
    isplitl [Ho]; · iexact Ho
    isplitl [H0]; · iexact H0
    iexists _; iexact H1
  · have h1 : t.val % 2 = 1 := by omega
    rw [show (dat0 V c).leavesExact 1 t = owns (c : Thread nD τ) (st0_1 t) fullShare ((dat0 V c).after 1 t) from by
      unfold Dat.leavesExact; rw [liveAt0_1_odd t h1], after0_1]
    rw [Phi0_odd V c _ _ h1, Phi0_even V c _ _ (by omega : (t.val + 1) % 2 = 0), acc0_odd V c t h1,
      acc0_even V c ⟨t.val - 1, _⟩ (by dsimp only; omega), scopedRest0_split]
    iintro ⟨⟨HS0, HR⟩, Ho, ⟨%d0, H0⟩, ⟨%d1, H1⟩⟩
    iapply (sound_kernel0_B c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 HR]
    · isplitl [HS0]; · iexists _; iexact HS0
      iexact HR
    isplitl [Ho]; · iexact Ho
    isplitl [H0]; · iexact H0
    iexact H1

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Region0

end
-- ==== Proof.KernelIdeal.Region1.lean ====
import proofs.«141870_j36000415875584_2_alg».proof.Proof.Gen.KernelIdeal.Launch
import proofs.«141870_j36000415875584_2_alg».proof.Proof.Gen.KernelIdeal.Skeleton
import proofs.«141870_j36000415875584_2_alg».proof.Proof.Gen.KernelIdeal.Points
import Idealize.ShloMosaic.Lib.Pipeline.FrameBody
import Idealize.ShloMosaic.Lib.Pipeline.Value
import Idealize.ShloMosaic.Lib.Tactic

/-! # The second pipelined call: each 256 x 512 tile scaled by its rows' and its columns' factors

The grid has 8 x 4 points; point `t` is the tile of row block `t / 4` and column block `t % 4` of every batch. The body
reads the tile and the two blocks of factors whole and overwrites the output tile: with the identity added first on the
tiles that meet the diagonal, without it on the others. This file states the proof data of that pipeline at arbitrary
entry contents and proves that the body meets its obligation at every grid point. -/

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (qs : Fin cfg1.W → PosShare TreeShare)

/-! ## The windows' blocks -/

/-- Window `w`'s block at grid point `t`: the part of the window's array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block at every point, whether the point fetches
    it or not (a point that does not fetch has the block index of the point before it): window 0. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the row scale: fetched only at the first point of each row of the grid, and the same
    block at the four points of a row. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the column scale. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two control cases, in closed form over the grid

Point `t` of the 8 x 4 grid is the tile of row block `t / 4` (256 rows) and column block `t % 4` (512 columns).
The tile meets the diagonal exactly when its column block is half its row block, rounded down. -/

/-- The first conditional (the tile meets the diagonal) is taken exactly at the points with `t % 4 = t / 4 / 2`. -/
theorem hcond1 : ∀ t : Fin cfg1.N, k1_cond1 (grid1.coords t) = 1#1 ↔ t.val % 4 = t.val / 4 / 2 :=
  (by decide +kernel : ∀ t : Fin grid1.N, k1_cond1 (grid1.coords t) = 1#1 ↔ t.val % 4 = t.val / 4 / 2)

/-- The second conditional is its negation. -/
theorem hcond2 : ∀ t : Fin cfg1.N, k1_cond2 (grid1.coords t) = 1#1 ↔ ¬ t.val % 4 = t.val / 4 / 2 :=
  (by decide +kernel : ∀ t : Fin grid1.N, k1_cond2 (grid1.coords t) = 1#1 ↔ ¬ t.val % 4 = t.val / 4 / 2)

/-- Exactly one of the two conditionals stores the output tile at every point: the output window is never idle. -/
theorem liveAt1_3 : ∀ t : Fin cfg1.N, cfg1.idle 3 (grid1.coords t) = false := by decide +kernel

/-- The zero offsets of the body's whole-buffer accesses. -/
theorem hz3 : (![0, 0, 0] : Fin 3 → Nat) = fun _ => 0 := by funext a; fin_cases a <;> rfl
theorem hz2 : (![0, 0] : Fin 2 → Nat) = fun _ => 0 := by funext a; fin_cases a <;> rfl

/-! ## The body's triple, one per control case -/

set_option maxHeartbeats 1000000 in
/-- On a tile that meets the diagonal the body reads its three inputs whole, and overwrites the whole output buffer
    (whatever it held) with the diagonal payload of the three. -/
theorem sound_kernel1_A (c : Dev nD) (E : Set ℕ) (i : grid1.Coords)
    (arg2 : Memref sig .tc .vmem S8x256x512 .f32) (harg2 : arg2.IsWhole)
    (arg3 : Memref sig .tc .vmem S8x256 .f32) (harg3 : arg3.IsWhole)
    (arg4 : Memref sig .tc .vmem S8x512 .f32) (harg4 : arg4.IsWhole)
    (arg5 : Memref sig .tc .vmem S8x256x512 .f32) (harg5 : arg5.IsWhole)
    (hc1 : k1_cond1 i = 1#1) (hc2 : ¬ k1_cond2 i = 1#1)
    (x0 : Vec F S8x256x512 .f32) (x1 : Vec F S8x256 .f32) (x2 : Vec F S8x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay3 i x0 x1 x2)) -∗ K ⟨⟩))
      ⊢ wp frame (wpE (defs₀ (F := F)) Variants.none c none) E
          (cc1__norm_kernel i arg2 harg2 arg3 harg3 arg4 harg4 arg5 harg5) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz3 inb_S8x256x512_S8x256x512_0_0_0 y⟩),
    View.canon_unit_zero hz3]
  simp only [View.readAt_eq_ld, View.ld_unit_zero (S := S8x256x512) hz3, View.ld_unit_zero (S := S8x256) hz2, View.ld_unit_zero (S := S8x512) hz2]

set_option maxHeartbeats 1000000 in
/-- On a tile off the diagonal the body reads its three inputs whole, and overwrites the whole output buffer with
    the plain payload of the three. -/
theorem sound_kernel1_B (c : Dev nD) (E : Set ℕ) (i : grid1.Coords)
    (arg2 : Memref sig .tc .vmem S8x256x512 .f32) (harg2 : arg2.IsWhole)
    (arg3 : Memref sig .tc .vmem S8x256 .f32) (harg3 : arg3.IsWhole)
    (arg4 : Memref sig .tc .vmem S8x512 .f32) (harg4 : arg4.IsWhole)
    (arg5 : Memref sig .tc .vmem S8x256x512 .f32) (harg5 : arg5.IsWhole)
    (hc1 : ¬ k1_cond1 i = 1#1) (hc2 : k1_cond2 i = 1#1)
    (x0 : Vec F S8x256x512 .f32) (x1 : Vec F S8x256 .f32) (x2 : Vec F S8x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (k1_pay4 x0 x1 x2)) -∗ K ⟨⟩))
      ⊢ wp frame (wpE (defs₀ (F := F)) Variants.none c none) E
          (cc1__norm_kernel i arg2 harg2 arg3 harg3 arg4 harg4 arg5 harg5) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz3 inb_S8x256x512_S8x256x512_0_0_0 y⟩),
    View.canon_unit_zero hz3]
  simp only [View.readAt_eq_ld, View.ld_unit_zero (S := S8x256x512) hz3, View.ld_unit_zero (S := S8x256) hz2, View.ld_unit_zero (S := S8x512) hz2]

/-! ## What the body leaves in the output tile -/

/-- The output tile after the body at point `t`, from the three input blocks there: on a tile that meets the
    diagonal the scaled tile with the identity added on the diagonal, elsewhere the scaled tile. -/
def out1_3 (c : Dev nD) (t : Fin cfg1.N) : Vec F S8x256x512 .f32 :=
  if k1_cond1 (grid1.coords t) = 1#1 then k1_pay3 (grid1.coords t) (iblk1 V c 0 t) (iblk1 V c 1 t) (iblk1 V c 2 t)
  else k1_pay4 (iblk1 V c 0 t) (iblk1 V c 1 t) (iblk1 V c 2 t)

/-! ## The pipeline's proof data -/

/-- The proof data of the second pipeline on core `c`: the arrays as the region finds them; after the body at point
    `t` each input's buffer at its block and the output's at `out1_3`; the invariant the core's other scoped buffers,
    which the body never touches; the input arrays held at the shares `qs`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ _ := Pipeline.scopedRest (Ix := Unit) (Name := ℕ) (U := UR sig nD τ) (Lvl := ℕ) (Val := Elt F) spec1 c
  q := qs
  owed _ := 0

theorem A_eq1 (c : Dev nD) (w : Fin cfg1.W) : (dat1 V qs c).A w = V c (Pipeline.arrRef spec1 w) := by
  dsimp only [dat1]

theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = out1_3 V c t := by dsimp only [dat1]

theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d

/-! ## The body obligation, at a generic point -/

def bodyPre1 (c : Dev nD) (t : Fin cfg1.N) : sProp 𝕄 :=
  iprop((dat1 V qs c).Φ t.castSucc ∗ (dat1 V qs c).owesAt () t.castSucc
    ∗ (∃ d, owns (c : Thread nD τ) (st1_0 t) fullShare ((dat1 V qs c).before 0 t d))
    ∗ (∃ d, owns (c : Thread nD τ) (st1_1 t) fullShare ((dat1 V qs c).before 1 t d))
    ∗ (∃ d, owns (c : Thread nD τ) (st1_2 t) fullShare ((dat1 V qs c).before 2 t d))
    ∗ (∃ d, owns (c : Thread nD τ) (st1_3 t) fullShare ((dat1 V qs c).before 3 t d)))

def bodyPost1 (c : Dev nD) (t : Fin cfg1.N) : sProp 𝕄 :=
  iprop((dat1 V qs c).Φ t.succ ∗ (dat1 V qs c).owesAt () t.succ
    ∗ owns (c : Thread nD τ) (st1_0 t) fullShare ((dat1 V qs c).after 0 t)
    ∗ owns (c : Thread nD τ) (st1_1 t) fullShare ((dat1 V qs c).after 1 t)
    ∗ owns (c : Thread nD τ) (st1_2 t) fullShare ((dat1 V qs c).after 2 t)
    ∗ (dat1 V qs c).leavesExact 3 t)

set_option maxHeartbeats 1000000 in
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2]
  rw [show (dat1 V qs c).Φ t.succ = (dat1 V qs c).Φ t.castSucc from rfl,
    show (dat1 V qs c).owesAt () t.succ = (dat1 V qs c).owesAt () t.castSucc from rfl,
    after1_0, after1_1, after1_2,
    show (dat1 V qs c).leavesExact 3 t = owns (c : Thread nD τ) (st1_3 t) fullShare ((dat1 V qs c).after 3 t) from by
      unfold Dat.leavesExact; rw [liveAt1_3 t],
    after1_3]
  unfold out1_3
  by_cases h : t.val % 4 = t.val / 4 / 2
  · have hc1 : k1_cond1 (grid1.coords t) = 1#1 := (hcond1 t).mpr h
    have hc2 : ¬ k1_cond2 (grid1.coords t) = 1#1 := fun h' => (hcond2 t).mp h' h
    rw [if_pos hc1]
    iintro ⟨HΦ, Ho, ⟨%d0, H0⟩, ⟨%d1, H1⟩, ⟨%d2, H2⟩, ⟨%d3, H3⟩⟩
    iapply (sound_kernel1_A c Set.univ (grid1.coords t) _ _ _ _ _ _ _ _ hc1 hc2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hc1 : ¬ k1_cond1 (grid1.coords t) = 1#1 := fun h' => h ((hcond1 t).mp h')
    have hc2 : k1_cond2 (grid1.coords t) = 1#1 := (hcond2 t).mpr h
    rw [if_neg hc1]
    iintro ⟨HΦ, Ho, ⟨%d0, H0⟩, ⟨%d1, H1⟩, ⟨%d2, H2⟩, ⟨%d3, H3⟩⟩
    iapply (sound_kernel1_B c Set.univ (grid1.coords t) _ _ _ _ _ _ _ _ hc1 hc2 (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem body_obligation1 (c : Dev nD) : BodyObligation (dat1 (F := F) V qs c) (defs₀ (F := F)) Variants.none () Set.univ := fun t => by
  rw [bigSep_W1, bigSep_W1]
  exact sound_body1 V qs c t

end Cert.KernelIdeal.Region1

end
-- ==== Proof.KernelIdeal.Run.lean ====
import proofs.«141870_j36000415875584_2_alg».proof.Proof.Gen.KernelIdeal.Launch
import proofs.«141870_j36000415875584_2_alg».proof.Proof.Gen.KernelIdeal.Points
import proofs.«141870_j36000415875584_2_alg».proof.Proof.Gen.KernelIdeal.Skeleton
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Tactic
import proofs.«141870_j36000415875584_2_alg».proof.Proof.KernelIdeal.Region0
import proofs.«141870_j36000415875584_2_alg».proof.Proof.KernelIdeal.Region1

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: region 0, one host copy, region 1

Between two items every unscoped buffer of the core (`main_arg0`, `main_v0`, `main_v1`) is held whole at a named
valuation: `W0` at launch; `W1` after region 0 (its output array `main_v0` at what the write-backs leave);
`W2` after the host copy of `main_arg0` into `main_v1`; `W3` after region 1 (`main_v1` at what its write-backs
leave). Region 1 reads `main_v0` through TWO input windows (a row block and a column block of the same array): the
array's full share is dealt to them as its left and right halves at entry and joined again at exit. -/

variable (m : (ℓ : Loc nD τ sig) → Buf (Elt F) ℓ) (ρ : Dev nD → PrngReg)

/-! ## The three unscoped buffers, one by one -/

theorem unscopedBufs_three (c : Dev nD) (V : (b : Ref sig .tc) → Buf (Elt F) ((c : Thread nD τ).loc b)) :
    (unscopedBufs c V : sProp 𝕄) = iprop((((c : Thread nD τ).loc main_arg0) ↦{fullShare} V main_arg0)
      ∗ (((c : Thread nD τ).loc main_v0) ↦{fullShare} V main_v0) ∗ (((c : Thread nD τ).loc main_v1) ↦{fullShare} V main_v1)) := by
  unfold unscopedBufs
  exact bigSep_eq_bigSepL_of_eq [main_arg0, main_v0, main_v1] (by decide) (by decide) _

/-- The shares region 1's windows hold their arrays at: the two windows on `main_v0` a half each. -/
abbrev qs1 : Fin cfg1.W → PosShare TreeShare := ![fullShare, fullShare.left, fullShare.right, fullShare]

/-- Region 1's arrays, window by window, at those shares. -/
theorem arrays1_eq (c : Dev nD) (dat : Dat τ (Elt F) Unit ℕ (UR sig nD τ) ℕ cfg1 c) (hq : dat.q = qs1)
    (G : (w : Fin cfg1.W) → Buf (Elt F) ((cfg1.win w).arr.view.loc (c.tc : Thread nD τ))) :
    (dat.arrays G : sProp 𝕄) = iprop((((c : Thread nD τ).loc main_arg0) ↦{fullShare} G 0)
      ∗ (((c : Thread nD τ).loc main_v0) ↦{fullShare.left} G 1) ∗ (((c : Thread nD τ).loc main_v0) ↦{fullShare.right} G 2)
      ∗ (((c : Thread nD τ).loc main_v1) ↦{fullShare} G 3)) := by
  unfold Dat.arrays
  rw [bigSep_W1]
  unfold Dat.share
  rw [hq, (arr_whole1 0).set_eq_univ, (arr_whole1 1).set_eq_univ, (arr_whole1 3).set_eq_univ]
  rfl

/-! ## The buffers' contents at each boundary -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what the pipeline leaves, every other buffer as entered. -/
def W1 (c : Dev nD) : Valuation τ sig (Elt F) :=
  Pipeline.withArrays spec0 c (W0 m ρ c) fun w => (Region0.dat0 (V0 m ρ) c).arrAt w cfg0.N
theorem W1_arr (c : Dev nD) (w : Fin cfg0.W) :
    W1 m ρ c (Proc.devRef .tc (Pipeline.arrRef spec0 w)) = (Region0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (Region0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host copy. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- Region 1's proof data, at its entry contents and the shares above. -/
abbrev d1 (c : Dev nD) : Dat τ (Elt F) Unit ℕ (UR sig nD τ) ℕ cfg1 c := Region1.dat1 (V2 m ρ) qs1 c

/-- After region 1: `main_v1` at what the write-backs leave, the other two buffers as entered. -/
def W3 (c : Dev nD) : Valuation τ sig (Elt F) :=
  Function.update (W2 m ρ c) (Proc.devRef .tc main_v1) ((d1 m ρ c).arrAt 3 cfg1.N)
abbrev V3 : (c : Dev nD) → (b : Ref sig .tc) → Buf (Elt F) ((c : Thread nD τ).loc b) := fun c b => W3 m ρ c b
theorem W3_main_v1 (c : Dev nD) : W3 m ρ c (Proc.devRef .tc main_v1) = (d1 m ρ c).arrAt 3 cfg1.N := by
  unfold W3; exact Function.update_self ..
theorem W3_of_ne (c : Dev nD) (b : Ref sig .tc) (hb : b ≠ main_v1) : W3 m ρ c (Proc.devRef .tc b) = W2 m ρ c (Proc.devRef .tc b) := by
  unfold W3; exact Function.update_of_ne (StableHlo.devRef_ne_of_ne hb) ..

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Region0.dat0 (V0 m ρ) c
  | ⟨1, _⟩ => fun c => d1 m ρ c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as items of the run -/

set_option backward.isDefEq.respectTransparency.types false in
/-- Region 0 over the thread state: entered with every unscoped buffer at `W0`, left at `W1`. Its two arrays are
    distinct, so they are split out of the unscoped buffers and put back whole; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X _ := BI.emp
  Y _ := BI.emp
  Z c := iprop(Pipeline.unscopedRest (Ix := Unit) (Name := ℕ) (U := UR sig nD τ) (Lvl := ℕ) spec0 c (V0 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m ρ 0 c).Φ 0 = (Region0.dat0 (V0 m ρ) c).Φ 0 from rfl]
    iintro ⟨-, -, Hr⟩
    iapply (Region0.hin0 (V0 m ρ) c)
    iexact Hr
  hout c := by
    rw [Pipeline.ownSems0_none, show (pdats m ρ 0 c).Φ (Fin.last _) = (Region0.dat0 (V0 m ρ) c).Φ (Fin.last cfg0.N) from rfl]
    iintro Hr
    isplitr; · iempintro
    isplitr; · iempintro
    iapply (Region0.hout0 (V0 m ρ) c)
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- What region 1's arrays hold at its exit: the three inputs as entered, the output at what the write-backs leave. -/
theorem arr1_in0 (c : Dev nD) : (pdats m ρ 1 c).arrAt 0 (Pipeline.pin (pcfgs (F := F)) adm 1).N = V3 m ρ c main_arg0 :=
  ((d1 m ρ c).arrAt_in 0 rfl _).trans (W3_of_ne m ρ c main_arg0 (by decide)).symm
theorem arr1_in1 (c : Dev nD) : (pdats m ρ 1 c).arrAt 1 (Pipeline.pin (pcfgs (F := F)) adm 1).N = V3 m ρ c main_v0 :=
  ((d1 m ρ c).arrAt_in 1 rfl _).trans (W3_of_ne m ρ c main_v0 (by decide)).symm
theorem arr1_in2 (c : Dev nD) : (pdats m ρ 1 c).arrAt 2 (Pipeline.pin (pcfgs (F := F)) adm 1).N = V3 m ρ c main_v0 :=
  ((d1 m ρ c).arrAt_in 2 rfl _).trans (W3_of_ne m ρ c main_v0 (by decide)).symm
theorem arr1_out (c : Dev nD) : (pdats m ρ 1 c).arrAt 3 (Pipeline.pin (pcfgs (F := F)) adm 1).N = V3 m ρ c main_v1 :=
  (W3_main_v1 m ρ c).symm

set_option backward.isDefEq.respectTransparency.types false in
/-- Region 1 over the thread state: entered with every unscoped buffer at `W2`, left at `W3`. All three unscoped
    buffers are arrays of its windows; `main_v0` is read through two windows, each holding a half of its share. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (Region1.body_obligation1 (V2 m ρ) qs1 c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X _ := BI.emp
  Y _ := BI.emp
  Z c := iprop(∃ r, prngReg c r)
  hentry c := by
    rw [Pipeline.ownSems0_none, ← Pipeline.unscopedBufs_held (Ix := Unit) (Name := ℕ) (U := UR sig nD τ) (Lvl := ℕ) c (W2 m ρ c),
      unscopedBufs_three, arrays1_eq c (pdats m ρ 1 c) rfl]
    iintro ⟨⟨⟨Ha, Hv0, Hv1⟩, Hp, HO⟩, -, -⟩
    ihave Hs := (pointsTo_share (PosShare.mem_left_op_right fullShare)).1 $$ Hv0
    icases Hs with ⟨Hl, Hr⟩
    imodintro
    isplitl [Ha Hl Hr Hv1]
    · isplitl [Ha]; · iexact Ha
      isplitl [Hl]; · iexact Hl
      isplitl [Hr]; · iexact Hr
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hp
  hin c := by
    rw [show (pdats m ρ 1 c).Φ 0 = Pipeline.scopedRest (Ix := Unit) (Name := ℕ) (U := UR sig nD τ) (Lvl := ℕ) (Val := Elt F) spec1 c from rfl]
    iintro ⟨-, -, Hr⟩; iexact Hr
  hout c := by
    rw [Pipeline.ownSems0_none, show (pdats m ρ 1 c).Φ (Fin.last _) = Pipeline.scopedRest (Ix := Unit) (Name := ℕ) (U := UR sig nD τ) (Lvl := ℕ) (Val := Elt F) spec1 c from rfl]
    iintro Hr
    isplitr; · iempintro
    isplitr; · iempintro
    iexact Hr
  hexit c := by
    unfold Tₙ
    rw [arrays1_eq c (pdats m ρ 1 c) rfl, ← Pipeline.unscopedBufs_held (Ix := Unit) (Name := ℕ) (U := UR sig nD τ) (Lvl := ℕ) c (W3 m ρ c),
      unscopedBufs_three, arr1_in0, arr1_in1, arr1_in2, arr1_out]
    iintro ⟨⟨Ha, Hl, Hr, Hv1⟩, HO, -, Hp⟩
    ihave Hv0 := (pointsTo_share (PosShare.mem_left_op_right fullShare)).2 $$ [Hl Hr]
    · isplitl [Hl]; · iexact Hl
      iexact Hr
    imodintro
    isplitl [Ha Hv0 Hv1 Hp]
    · isplitl [Ha Hv0 Hv1]
      · isplitl [Ha]; · iexact Ha
        isplitl [Hv0]; · iexact Hv0
        iexact Hv1
      iexact Hp
    unfold Pipeline.Dat.owesAt Pipeline.owesWithin
    icases HO with ⟨%W, -, HO⟩; iexists W; iexact HO

/-! ## @main as the run of its items, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    in every final state each unscoped buffer holds what the last valuation `W3` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-! ## Reading the last valuation -/

/-- The host copy writes `main_v1` only. -/
theorem W2_of_ne (c : Dev nD) (b : Ref sig .tc) (hb : b ≠ main_v1) : W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- The argument reaches the end as launched: region 0 reads it, the host copy reads it, region 1 reads it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((Region0.dat0 (V0 m ρ) c).arrAt_in 0 rfl _).trans (Region0.A_eq0 (V0 m ρ) c 0))
    _ = m ((c : Thread nD τ).loc main_arg0) := rfl

/-- What region 1 finds in `main_arg0`: the launch contents. -/
theorem V2_main_arg0 (c : Dev nD) : V2 m ρ c main_arg0 = m ((c : Thread nD τ).loc main_arg0) :=
  ((W3_of_ne m ρ c main_arg0 (by decide)).symm).trans (W3_main_arg0 m ρ c)

/-- What region 1 finds in `main_v0`: what region 0's write-backs left. -/
theorem V2_main_v0 (c : Dev nD) : V2 m ρ c main_v0 = (Region0.dat0 (V0 m ρ) c).arrAt 1 cfg0.N :=
  (W2_of_ne m ρ c main_v0 (by decide)).trans (W1_arr m ρ c 1)

/-- THE FRAME, at any float instance: every weakly fair execution terminates, nothing faults, the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c _ (mem_uc main_arg0 (by decide))).trans (W3_main_arg0 m ρ c)) (run_all m ρ)

/-- THE RUN WITH ITS RESULT NAMED: the result array ends at what region 1's write-backs leave, the argument as launched. -/
theorem run_result : θ_run defs (onTc (τ := τ) (main (F := F))) ⟨m, fun _ => 0, ρ⟩ (fun r => ∀ c : Dev nD,
      r.2.mem ((c.tc : Thread nD τ).loc main_v1) = (d1 m ρ c).arrAt 3 cfg1.N
      ∧ r.2.mem ((c.tc : Thread nD τ).loc main_arg0) = m ((c.tc : Thread nD τ).loc main_arg0)) :=
  (θ_run defs _ _).mono (fun _ h c => ⟨(h c _ (mem_uc main_v1 (by decide))).trans (W3_main_v1 m ρ c),
    (h c _ (mem_uc main_arg0 (by decide))).trans (W3_main_arg0 m ρ c)⟩) (run_all m ρ)

end Cert.KernelIdeal.Run

end
-- ==== Proof.Spec.lean ====
/-
  The symmetrically normalised adjacency, index by index.

  For an array `adj` of extended reals over [8, 2048, 2048] the result at (b, i, j) is

      d b i * (adj b i j + δ i j) * d b j,      d b i = dinv (deg b i),      deg b i = (∑ j, adj b i j) + 1,

  where δ is the identity matrix and `dinv s` is `s ^ (-1/2)` where `0 < s` and `0` elsewhere (the inner
  selection replaces a non-positive `s` by `1` before the inverse square root is taken). This module states
  that function (`G`), keeps the two float literals `1.0` and `0.0` as their words, and proves the two laws of
  finite sums that relate the arrangements in which a row's degree can be computed: a row summed in two halves
  from `0.0` is the row's sum, and the sum of a row with the identity's row added term by term is the row's sum
  plus one. Both laws hold in every additive commutative monoid, so no entry needs to be finite.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic Idealize.ShloMosaic.ValueIdx

/-! ## The two literals -/

/-- The word of `1.0`, as the extended real it denotes. -/
abbrev one : EReal := Ideal.ofBits .f32 0x3F800000#32
/-- The word of `0.0`, as the extended real it denotes. -/
abbrev zero : EReal := Ideal.ofBits .f32 0x00000000#32

/-- `0.0` denotes `0`. -/
theorem zero_eq : zero = 0 := Ideal.ofBits_zero_f32
/-- `1.0` denotes `1`: sign 0, exponent 127 = bias, significand 0. -/
theorem one_eq : one = 1 := by
  show Ideal.ofBits .f32 0x3F800000#32 = 1
  simp [Ideal.ofBits, Ideal.ieee, -EReal.coe_mul]; norm_num

/-! ## The function -/

/-- The degree of row `i` of batch `b` of `adj + I`: the row's sum, plus one. -/
def deg (adj : (⟨3, ![8, 2048, 2048]⟩ : Shape).Idx → EReal) (b : Fin 8) (i : Fin 2048) : EReal :=
  (∑ j : Fin 2048, adj (ix3 b i j)) + one

/-- The guarded inverse square root: `rsqrt s` where `0 < s`, else `0`; the argument of `rsqrt` is itself
    guarded (`s` where `0 < s`, else `1`), which changes nothing where the outer guard keeps the value. -/
def dinv (s : EReal) : EReal :=
  Scalar.select (Ideal.cmp .ogt s zero) (Ideal.rsqrt (Scalar.select (Ideal.cmp .ogt s zero) s one)) zero

/-- `dinv` with its comparison and its inverse square root spelled as the float operations of the field, at one element. -/
theorem dinv_kernel (s : EReal) :
    Scalar.select (FloatOps.cmpf (F := Ideal) (φ := .f32) .ogt s zero)
      (FloatOps.rsqrt (F := Ideal) (φ := .f32) (Scalar.select (FloatOps.cmpf (F := Ideal) (φ := .f32) .ogt s zero) s one)) zero
      = dinv s := rfl
/-- The same with the inverse square root spelled as the one-operand host operation: one function on the extended reals. -/
theorem dinv_host (s : EReal) :
    Scalar.select (FloatOps.cmpf (F := Ideal) (φ := .f32) .ogt s zero)
      (FloatOps.hostUnary (F := Ideal) (φ := .f32) .rsqrt (Scalar.select (FloatOps.cmpf (F := Ideal) (φ := .f32) .ogt s zero) s one)) zero
      = dinv s := rfl

/-- The scaling vector `d = dinv ∘ deg` over [8, 2048]. -/
def dvec (adj : (⟨3, ![8, 2048, 2048]⟩ : Shape).Idx → EReal) : (⟨2, ![8, 2048]⟩ : Shape).Idx → EReal :=
  fun k => dinv (deg adj (k 0) (k 1))
@[simp] theorem dvec_ix2 (adj : (⟨3, ![8, 2048, 2048]⟩ : Shape).Idx → EReal) (b : Fin 8) (i : Fin 2048) :
    dvec adj (ix2 b i) = dinv (deg adj b i) := rfl

/-- The result at coordinates (b, i, j): row scaling, the identity added to the middle factor, column scaling. -/
def entry (adj : (⟨3, ![8, 2048, 2048]⟩ : Shape).Idx → EReal) (b : Fin 8) (i j : Fin 2048) : EReal :=
  (dinv (deg adj b i) * (adj (ix3 b i j) + (if i = j then one else 0))) * dinv (deg adj b j)

/-- The result as one function of the index. -/
def G (adj : (⟨3, ![8, 2048, 2048]⟩ : Shape).Idx → EReal) : (⟨3, ![8, 2048, 2048]⟩ : Shape).Idx → EReal :=
  fun k => entry adj (k 0) (k 1) (k 2)

theorem G_ix3 (adj : (⟨3, ![8, 2048, 2048]⟩ : Shape).Idx → EReal) (b : Fin 8) (i j : Fin 2048) :
    G adj (ix3 b i j) = (dinv (deg adj b i) * (adj (ix3 b i j) + (if i = j then one else 0))) * dinv (deg adj b j) := rfl

/-- Off the diagonal the middle factor is the entry itself. -/
theorem G_of_ne (adj : (⟨3, ![8, 2048, 2048]⟩ : Shape).Idx → EReal) (b : Fin 8) {i j : Fin 2048} (h : i ≠ j) :
    G adj (ix3 b i j) = (dinv (deg adj b i) * adj (ix3 b i j)) * dinv (deg adj b j) := by
  rw [G_ix3, if_neg h, add_zero]
/-- On the diagonal the middle factor is the entry plus `1.0`. -/
theorem G_of_eq (adj : (⟨3, ![8, 2048, 2048]⟩ : Shape).Idx → EReal) (b : Fin 8) (i : Fin 2048) :
    G adj (ix3 b i i) = (dinv (deg adj b i) * (adj (ix3 b i i) + one)) * dinv (deg adj b i) := by
  rw [G_ix3, if_pos rfl]

/-! ## The identity's entry, from words -/

/-- Two coordinates below `2 ^ 32`, as 32-bit words, are equal words exactly when they are equal. -/
theorem ofNat_eq_iff {a c : Nat} (ha : a < 2 ^ 32) (hc : c < 2 ^ 32) : BitVec.ofNat 32 a = BitVec.ofNat 32 c ↔ a = c := by
  constructor
  · intro e
    have := congrArg BitVec.toNat e
    rwa [BitVec.toNat_ofNat, BitVec.toNat_ofNat, Nat.mod_eq_of_lt ha, Nat.mod_eq_of_lt hc] at this
  · rintro rfl; rfl

/-- The comparison of two such coordinates' words is the bit of their equality. -/
theorem cmpi_eq_ofNat {a c : Nat} (ha : a < 2 ^ 32) (hc : c < 2 ^ 32) :
    IntOp.cmpi .eq (BitVec.ofNat 32 a) (BitVec.ofNat 32 c) = if a = c then 1#1 else 0#1 := by
  show BitVec.ofBool (BitVec.ofNat 32 a == BitVec.ofNat 32 c) = _
  by_cases h : a = c
  · subst h; simp
  · have hne : BitVec.ofNat 32 a ≠ BitVec.ofNat 32 c := fun e => h ((ofNat_eq_iff ha hc).mp e)
    rw [if_neg h, beq_eq_false_iff_ne.mpr hne]; rfl

/-- The identity's entry as the host computes it — the unsigned conversion of the bit "row word = column word" —
    is `1` on the diagonal and `0` off it. -/
theorem delta_host (i j : Fin 2048) :
    FloatOps.uitofp (F := Ideal) .f32 (IntOp.cmpi .eq (IntOp.addi (BitVec.ofNat 32 i.val) 0#32) (BitVec.ofNat 32 j.val))
      = if i = j then one else 0 := by
  have hi : i.val < 2 ^ 32 := lt_trans i.isLt (by norm_num)
  have hj : j.val < 2 ^ 32 := lt_trans j.isLt (by norm_num)
  show (((IntOp.cmpi .eq (BitVec.ofNat 32 i.val + 0#32) (BitVec.ofNat 32 j.val)).toNat : ℝ) : EReal) = _
  rw [BitVec.add_zero, cmpi_eq_ofNat hi hj, one_eq]
  by_cases h : i = j
  · subst h; simp
  · have : i.val ≠ j.val := fun e => h (Fin.ext e)
    simp [h, this]

/-! ## The two laws of sums -/

/-- A row summed in two halves, the first from `0.0`, is the row's sum. -/
theorem sum_split (f : Fin 2048 → EReal) :
    (zero + ∑ l : Fin 1024, f ⟨l.val, by omega⟩) + ∑ l : Fin 1024, f ⟨1024 + l.val, by omega⟩ = ∑ j : Fin 2048, f j := by
  rw [zero_eq, zero_add]
  exact (Fin.sum_univ_add (a := 1024) (b := 1024) f).symm

/-- The same with the halves named: whatever the two halves are known to be, term by term. -/
theorem sum_split_of_eq (f : Fin 2048 → EReal) (g h : Fin 1024 → EReal)
    (hg : ∀ l : Fin 1024, g l = f ⟨l.val, by omega⟩) (hh : ∀ l : Fin 1024, h l = f ⟨1024 + l.val, by omega⟩) :
    (zero + ∑ l : Fin 1024, g l) + ∑ l : Fin 1024, h l = ∑ j : Fin 2048, f j := by
  rw [← sum_split f]
  exact congrArg₂ (· + ·) (congrArg (zero + ·) (Finset.sum_congr rfl fun l _ => hg l)) (Finset.sum_congr rfl fun l _ => hh l)

/-- A row with the identity's row added term by term sums to the row's sum plus the diagonal's value. -/
theorem sum_add_delta (f : Fin 2048 → EReal) (i : Fin 2048) (c : EReal) :
    ∑ j : Fin 2048, (f j + (if i = j then c else 0)) = (∑ j : Fin 2048, f j) + c := by
  rw [Finset.sum_add_distrib, Finset.sum_ite_eq Finset.univ i (fun _ => c), if_pos (Finset.mem_univ i)]

end Cert.Spec

end
-- ==== Proof.RefValue.lean ====
/-
  What the reference computes, index by index, is the normalised adjacency `Cert.Spec.G` of its argument.

  The reference forms `a = adj + I` (the identity as the conversion of the bit "row = column"), sums each row of
  `a` from `0.0`, takes the guarded inverse square root `d` of each row sum, and returns `(d_i · a_ij) · d_j`.
  Entry by entry that is `G` as soon as the row sum of `a` is the row sum of `adj` plus one: the sum of a row
  with the identity's row added term by term is the row's sum plus the diagonal's `1.0` (`Spec.sum_add_delta`),
  and the initial `0.0` is the neutral element. No entry needs to be finite.
-/
import proofs.«141870_j36000415875584_2_alg».proof.Proof.Spec
import proofs.«141870_j36000415875584_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The identity and `a = adj + I` -/

/-- The broadcast identity matrix at (b, i, j): `1.0` on the diagonal, `0` off it, whatever the batch. -/
theorem eye_at (b : Fin 8) (i j : Fin 2048) :
    val_main_v7 (F := Ideal) (ix3 b i j) = if i = j then Spec.one else 0 := by
  rw [val_main_v7_apply, val_main_v6_apply, val_main_v5_apply, val_main_v4_apply, val_main_v3_apply,
    val_main_v0_apply, val_main_v2_apply, val_main_c_apply, val_main_v1_apply]
  exact Spec.delta_host i j

/-- `a = adj + I` at (b, i, j). -/
theorem a_at (x : (⟨S8x2048x2048, .f32⟩ : BufTy).Contents (Elt Ideal)) (b : Fin 8) (i j : Fin 2048) :
    val_main_v8 (F := Ideal) x (ix3 b i j) = x (ix3 b i j) + (if i = j then Spec.one else 0) := by
  rw [val_main_v8_apply, eye_at]; rfl

/-! ## The row sums and the scaling vector -/

/-- The index of the `k`-th term of row (b, i)'s sum. -/
theorem row_idx (b : Fin 8) (i k : Fin 2048) : idx_main_v9 (ix2 b i) k = ix3 b i k := by
  funext a; match a with | ⟨0, _⟩ => rfl | ⟨1, _⟩ => rfl | ⟨2, _⟩ => rfl

/-- The row sum of `a` from `0.0` is the degree: the row sum of `adj`, plus one. -/
theorem deg_at (x : (⟨S8x2048x2048, .f32⟩ : BufTy).Contents (Elt Ideal)) (b : Fin 8) (i : Fin 2048) :
    val_main_v9 (F := Ideal) x (ix2 b i) = Spec.deg x b i := by
  rw [val_main_v9_apply, val_main_cst_apply]
  simp only [row_idx, a_at]
  rw [Spec.sum_add_delta]
  show Spec.zero + _ = _
  rw [Spec.zero_eq, zero_add]; rfl

/-- The scaling vector at (b, i) is the guarded inverse square root of the degree. -/
theorem d_at (x : (⟨S8x2048x2048, .f32⟩ : BufTy).Contents (Elt Ideal)) (b : Fin 8) (i : Fin 2048) :
    val_main_v18 (F := Ideal) x (ix2 b i) = Spec.dinv (Spec.deg x b i) := by
  rw [val_main_v18_apply, val_main_v15_apply, val_main_v16_apply, val_main_v13_apply, val_main_v11_apply, deg_at,
    val_main_v14_apply, val_main_v17_apply, val_main_v12_apply, val_main_v10_apply, val_main_cst_2_apply,
    val_main_cst_3_apply, val_main_cst_1_apply, val_main_cst_0_apply]
  exact Spec.dinv_host _

/-! ## The result -/

/-- The row factor of entry (b, i, j) is read at (b, i) … -/
theorem rowfac_idx (b : Fin 8) (i j : Fin 2048) : idx_main_v19 (idx_main_v20 (ix3 b i j)) = ix2 b i := by
  funext a; match a with | ⟨0, _⟩ => rfl | ⟨1, _⟩ => rfl
/-- … and its column factor at (b, j). -/
theorem colfac_idx (b : Fin 8) (i j : Fin 2048) : idx_main_v22 (idx_main_v23 (ix3 b i j)) = ix2 b j := by
  funext a; match a with | ⟨0, _⟩ => rfl | ⟨1, _⟩ => rfl

theorem result_at (x : (⟨S8x2048x2048, .f32⟩ : BufTy).Contents (Elt Ideal)) (b : Fin 8) (i j : Fin 2048) :
    val_main_v24 (F := Ideal) x (ix3 b i j) = Spec.G x (ix3 b i j) := by
  rw [val_main_v24_apply, val_main_v21_apply, val_main_v20_apply, val_main_v19_apply, val_main_v23_apply,
    val_main_v22_apply, a_at, rowfac_idx, colfac_idx, d_at, d_at, Spec.G_ix3]
  rfl

/-- The reference's result, as a function of its argument array, is `Spec.G` of it. -/
theorem ref_eq (x : (⟨S8x2048x2048, .f32⟩ : BufTy).Contents (Elt Ideal)) :
    val_main_v24 (F := Ideal) x = Spec.G x := by
  funext k
  obtain ⟨b, i, j, rfl⟩ : ∃ (b : Fin 8) (i j : Fin 2048), k = ix3 b i j := ⟨k 0, k 1, k 2, eq_ix3 k⟩
  exact result_at x b i j

end Cert.ReferenceIdeal.RefValue

end
-- ==== Proof.Payload0.lean ====
/-
  The degree stage's three values, read at one element.

  A row block of 256 rows of every batch is visited twice, once per half of its 2048 columns. The running row sums
  start at `0.0`; each visit adds, to the running sum of row (b, r), the sum of that row over the 1024 columns of the
  half it sees; after the second visit the scaling value is the guarded inverse square root of the running sum plus
  `1.0`. Read at (b, r) over the two halves this is `dinv (((0.0 + ∑ first half) + ∑ second half) + 1.0)`, the
  arrangement `Cert.Spec.sum_split_of_eq` turns into `dinv` of the degree.
-/
import proofs.«141870_j36000415875584_2_alg».proof.Proof.Gen.KernelIdeal.Skeleton
import proofs.«141870_j36000415875584_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload0

open Cert.KernelIdeal Cert.KernelIdeal.Gen Idealize.ShloMosaic Idealize.ShloMosaic.ValueIdx

/-- A sum over the last axis of an [8, 256, 1024] array, read at (b, r): the sum of row (b, r). -/
theorem rowsum_at (x : FVec Ideal S8x256x1024 .f32) (h : S8x256x1024.Reduces [2] S8x256) (hφ : FKind.Formats .f32)
    (hacc : (0x00000000#32 : BitVec 32) = FKind.add.neutral .f32 hφ) (b : Fin 8) (r : Fin 256) :
    multiReduction .add [2] S8x256 x 0x00000000#32 h hφ hacc (ix2 b r) = ∑ l : Fin 1024, x (ix3 b r l) := by
  refine (Ideal.multiReduction_add_single x 0x00000000#32 h hφ hacc (ix2 b r)).trans ?_
  exact Finset.sum_congr rfl fun k _ => congrArg x (funext fun a => Fin.ext (by
    match a with | ⟨0, _⟩ => rfl | ⟨1, _⟩ => rfl | ⟨2, _⟩ => rfl))

/-- The running sums start at `0.0`. -/
theorem pay1_at (b : Fin 8) (r : Fin 256) : k0_pay1 (F := Ideal) (ix2 b r) = Spec.zero := by
  unfold k0_pay1
  exact congrFun (shapeCast_self _ _) (ix2 b r)

/-- One visit adds the visited half's row sum to the running sum. -/
theorem pay2_at (x : Vec Ideal S8x256x1024 .f32) (s : Vec Ideal S8x256 .f32) (b : Fin 8) (r : Fin 256) :
    k0_pay2 (F := Ideal) x s (ix2 b r) = s (ix2 b r) + ∑ l : Fin 1024, x (ix3 b r l) := by
  unfold k0_pay2
  refine (congrFun (shapeCast_self _ _) (ix2 b r)).trans ?_
  exact congrArg (s (ix2 b r) + ·) (rowsum_at x _ _ _ b r)

/-- The scaling value is the guarded inverse square root of the running sum plus `1.0`. -/
theorem pay3_at (s : Vec Ideal S8x256 .f32) (b : Fin 8) (r : Fin 256) :
    k0_pay3 (F := Ideal) s (ix2 b r) = Spec.dinv (s (ix2 b r) + Spec.one) := by
  unfold k0_pay3
  exact Spec.dinv_kernel (s (ix2 b r) + Spec.one)

/-- The three in sequence over the two halves `x0`, `x1` of a row block. -/
theorem chain_at (x0 x1 : Vec Ideal S8x256x1024 .f32) (b : Fin 8) (r : Fin 256) :
    k0_pay3 (F := Ideal) (k0_pay2 (F := Ideal) x1 (k0_pay2 (F := Ideal) x0 (k0_pay1 (F := Ideal)))) (ix2 b r)
      = Spec.dinv (((Spec.zero + ∑ l : Fin 1024, x0 (ix3 b r l)) + ∑ l : Fin 1024, x1 (ix3 b r l)) + Spec.one) := by
  rw [pay3_at, pay2_at, pay2_at, pay1_at]

end Cert.KernelIdeal.Payload0

end
-- ==== Proof.KernelIdeal.Value0.lean ====
import proofs.«141870_j36000415875584_2_alg».proof.Proof.KernelIdeal.Region0
import proofs.«141870_j36000415875584_2_alg».proof.Proof.Payload0
import proofs.«141870_j36000415875584_2_alg».proof.Proof.Spec
import Idealize.ShloMosaic.Lib.Pipeline.Value
import Idealize.ShloMosaic.Lib.ValueIdx

/-!
# The scaling vector the first pipelined call leaves, over the extended reals

The output array of the first call is [8, 2048]. Rows `256 p … 256 p + 255` of every batch are written back once, at the
odd grid point `2 p + 1`, and hold the finalization of the running row sums over the two visits of that row block: the
even point `2 p` sees columns `0 … 1023` of those rows, the odd point `2 p + 1` columns `1024 … 2047`. Read at a row this
is the guarded inverse square root of the row's whole sum plus one, which is the scaling vector of the specification.
The eight written-back blocks tile the array, so the array ends holding that vector.
-/

set_option maxRecDepth 16384

noncomputable section

open scoped BigOperators

namespace Cert.KernelIdeal.Value0

open Cert.KernelIdeal Cert.KernelIdeal.Gen Cert.KernelIdeal.Region0
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of the two windows at point `t`: the input's block is (0, t / 2, t % 2), the output's (0, t / 2). -/
theorem idx_facts : ∀ t : Fin cfg0.N, win0_0.index t (0 : Fin 3) = 0 ∧ win0_0.index t (1 : Fin 3) = t.val / 2
    ∧ win0_0.index t (2 : Fin 3) = t.val % 2 ∧ win0_1.index t (0 : Fin 2) = 0 ∧ win0_1.index t (1 : Fin 2) = t.val / 2 :=
  (by decide +kernel : ∀ t : Fin grid0.N, _)

/-- The input block at point `t`, at (b, r, l), is the array at batch `b`, row `256 (t / 2) + r`, column `1024 (t % 2) + l`. -/
theorem iblk_apply (c : Dev nD) (t : Fin cfg0.N) (b : Fin 8) (r : Fin 256) (l : Fin 1024) (k : S8x2048x2048.Idx)
    (hk0 : (k 0).val = b.val) (hk1 : (k 1).val = 256 * (t.val / 2) + r.val) (hk2 : (k 2).val = 1024 * (t.val % 2) + l.val) :
    (iblk0 V c 0 t : Vec Ideal S8x256x1024 .f32) (ix3 b r l) = (V c main_arg0 : S8x2048x2048.Idx → EReal) k := by
  obtain ⟨e0, e1, e2, -, -⟩ := idx_facts t
  unfold iblk0
  rw [View.read_apply]
  show V c main_arg0 _ = V c main_arg0 _
  congr 1
  funext a
  apply Fin.ext
  match a with
  | ⟨0, _⟩ => show win0_0.index t (0 : Fin 3) * 8 + 1 * b.val = (k 0).val; rw [e0, hk0]; omega
  | ⟨1, _⟩ => show win0_0.index t (1 : Fin 3) * 256 + 1 * r.val = (k 1).val; rw [e1, hk1]; omega
  | ⟨2, _⟩ => show win0_0.index t (2 : Fin 3) * 1024 + 1 * l.val = (k 2).val; rw [e2, hk2]; omega

/-- The finalized running sums over the two halves of a row block are the scaling vector on that block's rows: for any
    two [8,256,1024] blocks that are the left and the right half of rows `256 p …` of `A`. -/
theorem block_value (A : S8x2048x2048.Idx → EReal) (x0 x1 : Vec Ideal S8x256x1024 .f32) (p : ℕ) (hp : p < 8)
    (h0 : ∀ (b : Fin 8) (r : Fin 256) (l : Fin 1024), x0 (ix3 b r l) = A (ix3 b (⟨256 * p + r.val, by omega⟩ : Fin 2048) (⟨l.val, by omega⟩ : Fin 2048)))
    (h1 : ∀ (b : Fin 8) (r : Fin 256) (l : Fin 1024), x1 (ix3 b r l) = A (ix3 b (⟨256 * p + r.val, by omega⟩ : Fin 2048) (⟨1024 + l.val, by omega⟩ : Fin 2048)))
    (b : Fin 8) (r : Fin 256) :
    k0_pay3 (F := Ideal) (k0_pay2 (F := Ideal) x1 (k0_pay2 (F := Ideal) x0 (k0_pay1 (F := Ideal)))) (ix2 b r)
      = Spec.dvec A (ix2 b (⟨256 * p + r.val, by omega⟩ : Fin 2048)) := by
  rw [Payload0.chain_at, Spec.dvec_ix2]
  unfold Spec.deg
  exact congrArg (fun s => Spec.dinv (s + Spec.one))
    (Spec.sum_split_of_eq (fun j => A (ix3 b (⟨256 * p + r.val, by omega⟩ : Fin 2048) j)) (fun l => x0 (ix3 b r l)) (fun l => x1 (ix3 b r l))
      (fun l => h0 b r l) (fun l => h1 b r l))

/-- What an odd point `t` writes back is block `t` of the scaling vector. -/
theorem flushed_eq (c : Dev nD) (t : Fin cfg0.N) (hf : (cfg0.win 1).flush t = true) :
    (dat0 (F := Ideal) V c).flushed 1 t = ((cfg0.win 1).blk t).view.read (Elt Ideal) (Spec.dvec (V c main_arg0)) := by
  have h1 : t.val % 2 = 1 := (flush0_1 t).mp hf
  have hN : t.val < 16 := lt_of_lt_of_eq t.isLt (show cfg0.N = 16 from N_0)
  obtain ⟨-, -, -, e3, e4⟩ := idx_facts t
  show (cfg0.win 1).cut (grid0.coords t) ((dat0 (F := Ideal) V c).after 1 t) = _
  rw [after0_1, acc0_odd V c t h1]
  funext j
  obtain ⟨b, r, rfl⟩ : ∃ (b : Fin 8) (r : Fin 256), j = ix2 b r := ⟨j 0, j 1, eq_ix2 j⟩
  rw [View.read_apply]
  have he : ((cfg0.win 1).blk t).view.emb (ix2 b r) = (ix2 b (⟨256 * (t.val / 2) + r.val, by omega⟩ : Fin 2048) : S8x2048.Idx) := by
    funext a
    apply Fin.ext
    match a with
    | ⟨0, _⟩ => show win0_1.index t (0 : Fin 2) * 8 + 1 * b.val = b.val; rw [e3]; omega
    | ⟨1, _⟩ => show win0_1.index t (1 : Fin 2) * 256 + 1 * r.val = 256 * (t.val / 2) + r.val; rw [e4]; omega
  show k0_pay3 (F := Ideal) (k0_pay2 (F := Ideal) (iblk0 V c 0 t) (k0_pay2 (F := Ideal) (iblk0 V c 0 ⟨t.val - 1, _⟩) (k0_pay1 (F := Ideal)))) (ix2 b r)
    = Spec.dvec (V c main_arg0) (((cfg0.win 1).blk t).view.emb (ix2 b r))
  rw [he]
  refine block_value (V c main_arg0) (iblk0 V c 0 ⟨t.val - 1, _⟩) (iblk0 V c 0 t) (t.val / 2) (by omega) ?_ ?_ b r
  · intro b r l
    exact iblk_apply V c ⟨t.val - 1, _⟩ b r l _ rfl (by show 256 * (t.val / 2) + r.val = 256 * ((t.val - 1) / 2) + r.val; omega)
      (by show l.val = 1024 * ((t.val - 1) % 2) + l.val; omega)
  · intro b r l
    exact iblk_apply V c t b r l _ rfl rfl (by show 1024 + l.val = 1024 * (t.val % 2) + l.val; omega)

/-- An index of the array is in point `t`'s block iff each coordinate is in the block's range on its axis. -/
theorem mem_blk (t : Fin cfg0.N) (i : S8x2048.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v0).slice (win0_1.rect t)).set ↔ _
  rw [View.set_slice_whole, Rect.mem_set_unit]
  exact Iff.rfl

/-- Row `r` of the array is written back by the odd point `2 (r / 256) + 1`. -/
theorem cover (i : S8x2048.Idx) : ∃ t : Fin cfg0.N, (cfg0.win 1).flush t = true ∧ i ∈ ((cfg0.win 1).blk t).view.set := by
  have hi0 : (i 0).val < 8 := (i 0).isLt
  have hi1 : (i 1).val < 2048 := (i 1).isLt
  have hN : cfg0.N = 16 := N_0
  refine ⟨⟨2 * ((i 1).val / 256) + 1, by rw [hN]; omega⟩, (flush0_1 _).mpr (by show (2 * ((i 1).val / 256) + 1) % 2 = 1; omega), ?_⟩
  rw [mem_blk]
  obtain ⟨-, -, -, e3, e4⟩ := idx_facts ⟨2 * ((i 1).val / 256) + 1, by rw [hN]; omega⟩
  intro a
  match a with
  | ⟨0, _⟩ =>
    show win0_1.index _ (0 : Fin 2) * 8 ≤ (i 0).val ∧ (i 0).val < win0_1.index _ (0 : Fin 2) * 8 + 8
    rw [e3]; omega
  | ⟨1, _⟩ =>
    show win0_1.index _ (1 : Fin 2) * 256 ≤ (i 1).val ∧ (i 1).val < win0_1.index _ (1 : Fin 2) * 256 + 256
    rw [e4]; show (2 * ((i 1).val / 256) + 1) / 2 * 256 ≤ (i 1).val ∧ (i 1).val < (2 * ((i 1).val / 256) + 1) / 2 * 256 + 256; omega

/-- The output array of the first call ends holding the scaling vector of the array the call read. -/
theorem value0 (c : Dev nD) : (dat0 (F := Ideal) V c).arrAt 1 cfg0.N = Spec.dvec (V c main_arg0) :=
  (dat0 (F := Ideal) V c).arrAt_eq_of_cover 1 (Spec.dvec (V c main_arg0)) (flushed_eq V c) cover

end Cert.KernelIdeal.Value0

end
-- ==== Proof.Payload1.lean ====
/-
  The normalisation stage's values, read at one element.

  A tile holds rows `256 * p …` and columns `512 * q …` of every batch, (p, q) the tile's position. Its result at
  (b, r, s) is `(d_row (b, r) * a) * d_col (b, s)`, where `a` is the tile's entry itself on a tile that does not meet
  the diagonal, and on one that may meet it the entry plus the identity's entry: `1.0` times the conversion of the
  bit "row number = column number", the numbers `256 * p + r` and `512 * q + s` computed as 32-bit words. They stay
  far below `2 ^ 32`, so the words are equal exactly when the numbers are, and the identity's entry is `1.0` on the
  diagonal and `0` off it.
-/
import proofs.«141870_j36000415875584_2_alg».proof.Proof.Gen.KernelIdeal.Skeleton
import proofs.«141870_j36000415875584_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload1

open Cert.KernelIdeal Cert.KernelIdeal.Gen Idealize.ShloMosaic Idealize.ShloMosaic.ValueIdx

/-! ## The three broadcasts, read at (b, r, s) -/

section Layout
variable {α : Type}

/-- A value per (batch, row), given a unit column axis and spread along the columns, reads its (b, r). -/
theorem rowbc_at (v : S8x256.Idx → α) (h : S8x256.ShapeCasts S8x256x1) (h' : S8x256x1.Broadcasts S8x256x512)
    (b : Fin 8) (r : Fin 256) (s : Fin 512) :
    broadcastTo S8x256x512 (shapeCast S8x256x1 v h) h' (ix3 b r s) = v (ix2 b r) := by
  refine (broadcastTo_apply _ h' (ix3 b r s) (ix3 b r (0 : Fin 1)) fun a => ?_).trans ?_
  · match a with
    | ⟨0, _⟩ => rfl
    | ⟨1, _⟩ => rfl
    | ⟨2, _⟩ => rfl
  · refine shapeCast_apply v h _ _ ?_
    rw [Shape.rowMajor_val_two, Shape.rowMajor_val_three]
    show b.val * 256 + r.val = (b.val * 256 + r.val) * 1 + 0
    omega

/-- A value per (batch, column), given a unit row axis and spread along the rows, reads its (b, s). -/
theorem colbc_at (v : S8x512.Idx → α) (h : S8x512.ShapeCasts S8x1x512) (h' : S8x1x512.Broadcasts S8x256x512)
    (b : Fin 8) (r : Fin 256) (s : Fin 512) :
    broadcastTo S8x256x512 (shapeCast S8x1x512 v h) h' (ix3 b r s) = v (ix2 b s) := by
  refine (broadcastTo_apply _ h' (ix3 b r s) (ix3 b (0 : Fin 1) s) fun a => ?_).trans ?_
  · match a with
    | ⟨0, _⟩ => rfl
    | ⟨1, _⟩ => rfl
    | ⟨2, _⟩ => rfl
  · refine shapeCast_apply v h _ _ ?_
    rw [Shape.rowMajor_val_two, Shape.rowMajor_val_three]
    show b.val * 512 + s.val = (b.val * 1 + 0) * 512 + s.val
    omega

/-- A value per (row, column), given a unit batch axis and spread along the batches, reads its (r, s). -/
theorem tilebc_at (v : S256x512.Idx → α) (h : S256x512.ShapeCasts S1x256x512) (h' : S1x256x512.Broadcasts S8x256x512)
    (b : Fin 8) (r : Fin 256) (s : Fin 512) :
    broadcastTo S8x256x512 (shapeCast S1x256x512 v h) h' (ix3 b r s) = v (ix2 r s) := by
  refine (broadcastTo_apply _ h' (ix3 b r s) (ix3 (0 : Fin 1) r s) fun a => ?_).trans ?_
  · match a with
    | ⟨0, _⟩ => rfl
    | ⟨1, _⟩ => rfl
    | ⟨2, _⟩ => rfl
  · exact shapeCast_ab_1ab_apply v h (0 : Fin 1) r s

end Layout

/-- The row scaling block as the stage reads it is the block itself … -/
theorem pay1_eq (v1 : Vec Ideal S8x256 .f32) : k1_pay1 (F := Ideal) v1 = v1 := by
  unfold k1_pay1
  exact shapeCast_self _ _
/-- … and so is the column scaling block. -/
theorem pay2_eq (v3 : Vec Ideal S8x512 .f32) : k1_pay2 (F := Ideal) v3 = v3 := by
  unfold k1_pay2
  exact shapeCast_self _ _

/-! ## The identity's entry on a tile -/

/-- A tile's row (or column) number as a 32-bit word: the product and the sum of words are the words of the product
    and the sum. -/
theorem word_mul_add (p c r : Nat) :
    IntOp.addi (Scalar.muli (BitVec.ofNat 32 p) (BitVec.ofNat 32 c)) (BitVec.ofNat 32 r) = BitVec.ofNat 32 (c * p + r) := by
  show BitVec.ofNat 32 p * BitVec.ofNat 32 c + BitVec.ofNat 32 r = _
  rw [← BitVec.ofNat_mul, ← BitVec.ofNat_add, Nat.mul_comm]

/-- The conversion of the one-bit word of an equality, widened to 32 bits, times `1.0`: `1.0` or `0`. -/
theorem bit_times_one (P : Prop) [Decidable P] :
    FloatOps.mulf (F := Ideal) (φ := .f32)
        (FloatOps.sitofp (F := Ideal) .f32 ((if P then 1#1 else 0#1 : BitVec 1).setWidth 32)) (Scalar.ofBits .f32 0x3F800000#32)
      = if P then Spec.one else 0 := by
  by_cases hP : P
  · rw [if_pos hP, if_pos hP]
    show (((BitVec.setWidth 32 1#1).toInt : ℝ) : EReal) * Spec.one = Spec.one
    rw [show (BitVec.setWidth 32 1#1).toInt = 1 by decide, Int.cast_one, EReal.coe_one, one_mul]
  · rw [if_neg hP, if_neg hP]
    show (((BitVec.setWidth 32 0#1).toInt : ℝ) : EReal) * Spec.one = 0
    rw [show (BitVec.setWidth 32 0#1).toInt = 0 by decide, Int.cast_zero, EReal.coe_zero, zero_mul]

/-- The identity's entry at element (r, s) of the tile at (p, q), from words. -/
theorem delta_word (p q r s : Nat) (hp : p < 8) (hq : q < 4) (hr : r < 256) (hs : s < 512) :
    FloatOps.mulf (F := Ideal) (φ := .f32)
        (FloatOps.sitofp (F := Ideal) .f32
          ((IntOp.cmpi .eq (IntOp.addi (Scalar.muli (BitVec.ofNat 32 p) 256#32) (BitVec.ofNat 32 r))
            (IntOp.addi (Scalar.muli (BitVec.ofNat 32 q) 512#32) (BitVec.ofNat 32 s))).setWidth 32))
        (Scalar.ofBits .f32 0x3F800000#32)
      = if 256 * p + r = 512 * q + s then Spec.one else 0 := by
  rw [word_mul_add p 256 r, word_mul_add q 512 s,
    Spec.cmpi_eq_ofNat (by omega : 256 * p + r < 2 ^ 32) (by omega : 512 * q + s < 2 ^ 32)]
  exact bit_times_one _

/-- The identity's tile, as the stage computes it, read at (r, s). -/
theorem eye_tile_at (i : grid1.Coords) (h0 : S256x512.Iotas .tc 32 [0]) (h1 : S256x512.Iotas .tc 32 [1]) (hlt : 1 < 32)
    (r : Fin 256) (s : Fin 512) :
    mulf (F := Ideal)
        (sitofp (F := Ideal) .f32
          (extui 32
            (cmpi .eq
              (addi (broadcast S256x512 (Scalar.muli (BitVec.ofNat 32 (i 0).val) 256#32)) (iota .tc S256x512 32 [0] h0))
              (addi (broadcast S256x512 (Scalar.muli (BitVec.ofNat 32 (i 1).val) 512#32)) (iota .tc S256x512 32 [1] h1)))
            hlt))
        (broadcast S256x512 (Scalar.ofBits .f32 0x3F800000#32)) (ix2 r s)
      = if 256 * (i 0).val + r.val = 512 * (i 1).val + s.val then Spec.one else 0 := by
  have e0 : iota .tc S256x512 32 [0] h0 (ix2 r s) = BitVec.ofNat 32 r.val := iota_single_apply .tc S256x512 32 0 h0 (ix2 r s)
  have e1 : iota .tc S256x512 32 [1] h1 (ix2 r s) = BitVec.ofNat 32 s.val := iota_single_apply .tc S256x512 32 1 h1 (ix2 r s)
  show FloatOps.mulf (F := Ideal) (φ := .f32)
      (FloatOps.sitofp (F := Ideal) .f32
        ((IntOp.cmpi .eq (IntOp.addi (Scalar.muli (BitVec.ofNat 32 (i 0).val) 256#32) (iota .tc S256x512 32 [0] h0 (ix2 r s)))
          (IntOp.addi (Scalar.muli (BitVec.ofNat 32 (i 1).val) 512#32) (iota .tc S256x512 32 [1] h1 (ix2 r s)))).setWidth 32))
      (Scalar.ofBits .f32 0x3F800000#32) = _
  rw [e0, e1]
  exact delta_word (i 0).val (i 1).val r.val s.val (i 0).isLt (i 1).isLt r.isLt s.isLt

/-! ## The two values the stage stores -/

/-- Pointwise shape of both values: a product of a product. -/
theorem mul_mul_at (A B C : FVec Ideal S8x256x512 .f32) (j : S8x256x512.Idx) : mulf (mulf A B) C j = (A j * B j) * C j := rfl

/-- A tile that does not meet the diagonal: the entry scaled by its row's and its column's values. -/
theorem pay4_at (v0 : Vec Ideal S8x256x512 .f32) (v1 : Vec Ideal S8x256 .f32) (v3 : Vec Ideal S8x512 .f32)
    (b : Fin 8) (r : Fin 256) (s : Fin 512) :
    k1_pay4 (F := Ideal) v0 v1 v3 (ix3 b r s) = (v1 (ix2 b r) * v0 (ix3 b r s)) * v3 (ix2 b s) := by
  unfold k1_pay4
  refine (mul_mul_at _ _ _ _).trans ?_
  rw [rowbc_at, colbc_at, pay1_eq, pay2_eq]

/-- A tile that may meet the diagonal: the identity's entry is added to the entry first. -/
theorem pay3_at (i : grid1.Coords) (v0 : Vec Ideal S8x256x512 .f32) (v1 : Vec Ideal S8x256 .f32) (v3 : Vec Ideal S8x512 .f32)
    (b : Fin 8) (r : Fin 256) (s : Fin 512) :
    k1_pay3 (F := Ideal) i v0 v1 v3 (ix3 b r s)
      = (v1 (ix2 b r) * (v0 (ix3 b r s)
          + (if 256 * (i 0).val + r.val = 512 * (i 1).val + s.val then Spec.one else 0))) * v3 (ix2 b s) := by
  unfold k1_pay3
  refine (mul_mul_at _ _ _ _).trans ?_
  rw [rowbc_at, colbc_at, pay1_eq, pay2_eq]
  refine congrArg (fun t => (v1 (ix2 b r) * t) * v3 (ix2 b s)) ?_
  refine congrArg (v0 (ix3 b r s) + ·) ?_
  refine (tilebc_at _ _ _ b r s).trans ?_
  exact eye_tile_at i _ _ _ r s

end Cert.KernelIdeal.Payload1

end
-- ==== Proof.SpecNorm.lean ====
import proofs.«141870_j36000415875584_2_alg».proof.Proof.Spec

/-! The normalised matrix as a function of the matrix AND of a given vector of row factors: entry `(b, i, j)` is
`(d[b,i] · (adj[b,i,j] + δ_ij)) · d[b,j]`. With the row factors computed from the matrix itself (`dvec`) it is the
whole result `G`. The second pass of the kernel computes this function of the array the first pass left. -/

noncomputable section

namespace Cert.Spec

open Idealize.ShloMosaic Idealize.ShloMosaic.ValueIdx

/-- Entry `(b, i, j)`: the row factor of row `i`, the entry with the diagonal raised by one, the row factor of row `j`. -/
def normEntry (adj : (⟨3, ![8, 2048, 2048]⟩ : Shape).Idx → EReal) (d : (⟨2, ![8, 2048]⟩ : Shape).Idx → EReal)
    (b : Fin 8) (i j : Fin 2048) : EReal :=
  (d (ix2 b i) * (adj (ix3 b i j) + (if i = j then one else 0))) * d (ix2 b j)

/-- The whole array, entry by entry. -/
def norm (adj : (⟨3, ![8, 2048, 2048]⟩ : Shape).Idx → EReal) (d : (⟨2, ![8, 2048]⟩ : Shape).Idx → EReal) :
    (⟨3, ![8, 2048, 2048]⟩ : Shape).Idx → EReal :=
  fun k => normEntry adj d (k 0) (k 1) (k 2)

theorem norm_ix3 (adj : (⟨3, ![8, 2048, 2048]⟩ : Shape).Idx → EReal) (d : (⟨2, ![8, 2048]⟩ : Shape).Idx → EReal)
    (b : Fin 8) (i j : Fin 2048) :
    norm adj d (ix3 b i j) = (d (ix2 b i) * (adj (ix3 b i j) + (if i = j then one else 0))) * d (ix2 b j) := rfl

/-- With the row factors of the matrix itself the function is the whole result. -/
theorem norm_dvec (adj : (⟨3, ![8, 2048, 2048]⟩ : Shape).Idx → EReal) : norm adj (dvec adj) = G adj := by
  funext k
  obtain ⟨b, i, j, rfl⟩ : ∃ (b : Fin 8) (i j : Fin 2048), k = ix3 b i j := ⟨k 0, k 1, k 2, eq_ix3 k⟩
  rw [norm_ix3, G_ix3, dvec_ix2, dvec_ix2]

end Cert.Spec

end
-- ==== Proof.KernelIdeal.Value1.lean ====
import proofs.«141870_j36000415875584_2_alg».proof.Proof.KernelIdeal.Region1
import Idealize.ShloMosaic.Lib.Pipeline.Value
import Idealize.ShloMosaic.Lib.ValueIdx
import proofs.«141870_j36000415875584_2_alg».proof.Proof.Payload1
import proofs.«141870_j36000415875584_2_alg».proof.Proof.SpecNorm

set_option maxRecDepth 16384

noncomputable section

namespace Cert.KernelIdeal.Value1

open Cert.KernelIdeal Cert.KernelIdeal.Gen Cert.KernelIdeal.Region1
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)
open Idealize.ShloMosaic.ValueIdx

section AnyInstance

variable {F : FTy → Type} [FloatOps F]
variable (V : (c : Dev nD) → (b : Ref sig .tc) → Buf (Elt F) ((c : Thread nD τ).loc b))
variable (qs : Fin cfg1.W → PosShare TreeShare)

/-! ## Where the blocks sit

Point `t` of the 8 x 4 grid works on row block `t / 4` (256 rows) and column block `t % 4` (512 columns): the big
input's and the output's block is tile `(t / 4, t % 4)` of the [8, 2048, 2048] array, the row scale's block is rows
`256 (t / 4) …` of the [8, 2048] scale array and the column scale's block is its columns `512 (t % 4) …`. -/

/-- The windows' block indices and the grid coordinates at point `t`, decided over the grid. -/
theorem idx_facts : ∀ t : Fin cfg1.N,
    win1_0.index t (0 : Fin 3) = 0 ∧ win1_0.index t (1 : Fin 3) = t.val / 4 ∧ win1_0.index t (2 : Fin 3) = t.val % 4
    ∧ win1_1.index t (0 : Fin 2) = 0 ∧ win1_1.index t (1 : Fin 2) = t.val / 4
    ∧ win1_2.index t (0 : Fin 2) = 0 ∧ win1_2.index t (1 : Fin 2) = t.val % 4
    ∧ win1_3.index t (0 : Fin 3) = 0 ∧ win1_3.index t (1 : Fin 3) = t.val / 4 ∧ win1_3.index t (2 : Fin 3) = t.val % 4
    ∧ ((grid1.coords t) 0).val = t.val / 4 ∧ ((grid1.coords t) 1).val = t.val % 4 :=
  (by decide +kernel : ∀ t : Fin grid1.N, _)

/-- The big input's block at point `t`, read at a block index, is the array at the tile's offset plus the index. -/
theorem iblk1_0_apply (c : Dev nD) (t : Fin cfg1.N) (x : S8x256x512.Idx) (k : S8x2048x2048.Idx)
    (hk0 : (k 0).val = (x 0).val) (hk1 : (k 1).val = 256 * (t.val / 4) + (x 1).val)
    (hk2 : (k 2).val = 512 * (t.val % 4) + (x 2).val) :
    (iblk1 V c 0 t : Vec F S8x256x512 .f32) x = (V c main_arg0 : S8x2048x2048.Idx → Elt F .f32) k := by
  obtain ⟨e0, e1, e2, -⟩ := idx_facts t
  unfold iblk1
  rw [View.read_apply]
  show V c main_arg0 _ = V c main_arg0 _
  congr 1
  funext a
  apply Fin.ext
  match a with
  | ⟨0, _⟩ => show win1_0.index t 0 * 8 + 1 * (x 0).val = (k 0).val; rw [e0, hk0]; omega
  | ⟨1, _⟩ => show win1_0.index t 1 * 256 + 1 * (x 1).val = (k 1).val; rw [e1, hk1]; omega
  | ⟨2, _⟩ => show win1_0.index t 2 * 512 + 1 * (x 2).val = (k 2).val; rw [e2, hk2]; omega

/-- The row scale's block at point `t`. -/
theorem iblk1_1_apply (c : Dev nD) (t : Fin cfg1.N) (x : S8x256.Idx) (k : S8x2048.Idx)
    (hk0 : (k 0).val = (x 0).val) (hk1 : (k 1).val = 256 * (t.val / 4) + (x 1).val) :
    (iblk1 V c 1 t : Vec F S8x256 .f32) x = (V c main_v0 : S8x2048.Idx → Elt F .f32) k := by
  obtain ⟨-, -, -, e0, e1, -⟩ := idx_facts t
  unfold iblk1
  rw [View.read_apply]
  show V c main_v0 _ = V c main_v0 _
  congr 1
  funext a
  apply Fin.ext
  match a with
  | ⟨0, _⟩ => show win1_1.index t 0 * 8 + 1 * (x 0).val = (k 0).val; rw [e0, hk0]; omega
  | ⟨1, _⟩ => show win1_1.index t 1 * 256 + 1 * (x 1).val = (k 1).val; rw [e1, hk1]; omega

/-- The column scale's block at point `t`. -/
theorem iblk1_2_apply (c : Dev nD) (t : Fin cfg1.N) (x : S8x512.Idx) (k : S8x2048.Idx)
    (hk0 : (k 0).val = (x 0).val) (hk1 : (k 1).val = 512 * (t.val % 4) + (x 1).val) :
    (iblk1 V c 2 t : Vec F S8x512 .f32) x = (V c main_v0 : S8x2048.Idx → Elt F .f32) k := by
  obtain ⟨-, -, -, -, -, e0, e1, -⟩ := idx_facts t
  unfold iblk1
  rw [View.read_apply]
  show V c main_v0 _ = V c main_v0 _
  congr 1
  funext a
  apply Fin.ext
  match a with
  | ⟨0, _⟩ => show win1_2.index t 0 * 8 + 1 * (x 0).val = (k 0).val; rw [e0, hk0]; omega
  | ⟨1, _⟩ => show win1_2.index t 1 * 512 + 1 * (x 1).val = (k 1).val; rw [e1, hk1]; omega

/-! ## From the tiles to the array -/

/-- An index of the output array is in point `t`'s tile iff each coordinate is in the tile's range on its axis. -/
theorem mem_blk3 (t : Fin cfg1.N) (i : S8x2048x2048.Idx) :
    i ∈ ((cfg1.win 3).blk t).view.set ↔ ∀ a : Fin 3, win1_3.index t a * S8x256x512.size a ≤ (i a).val ∧ (i a).val < win1_3.index t a * S8x256x512.size a + S8x256x512.size a := by
  show i ∈ ((View.whole main_v1).slice (win1_3.rect t)).set ↔ _
  rw [View.set_slice_whole, Rect.mem_set_unit]
  exact Iff.rfl

/-- Every index of the output array lies in the tile of the point `4 (row / 256) + column / 512`, which writes
    its tile back: the 32 tiles cover the array. -/
theorem cover3 (i : S8x2048x2048.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 2048 := (i 2).isLt
  have hN : cfg1.N = 32 := N_1
  refine ⟨⟨4 * ((i 1).val / 256) + (i 2).val / 512, by omega⟩, flush1_3 _, ?_⟩
  obtain ⟨-, -, -, -, -, -, -, e0, e1, e2, -⟩ := idx_facts ⟨4 * ((i 1).val / 256) + (i 2).val / 512, by omega⟩
  rw [mem_blk3]
  intro a
  match a with
  | ⟨0, _⟩ => show win1_3.index _ (0 : Fin 3) * 8 ≤ (i 0).val ∧ (i 0).val < win1_3.index _ (0 : Fin 3) * 8 + 8; rw [e0]; omega
  | ⟨1, _⟩ => show win1_3.index _ (1 : Fin 3) * 256 ≤ (i 1).val ∧ (i 1).val < win1_3.index _ (1 : Fin 3) * 256 + 256; rw [e1]; dsimp only; omega
  | ⟨2, _⟩ => show win1_3.index _ (2 : Fin 3) * 512 ≤ (i 2).val ∧ (i 2).val < win1_3.index _ (2 : Fin 3) * 512 + 512; rw [e2]; dsimp only; omega

/-- If what the body leaves in the output tile at every point `t` is ONE function `G` of the array index, read at
    the tile's offset plus the tile index, then the output array ends holding `G`. -/
theorem arr1_3_of (c : Dev nD) (G : S8x2048x2048.Idx → Elt F .f32)
    (hG : ∀ (t : Fin cfg1.N) (j : S8x256x512.Idx) (k : S8x2048x2048.Idx), (k 0).val = (j 0).val →
      (k 1).val = 256 * (t.val / 4) + (j 1).val → (k 2).val = 512 * (t.val % 4) + (j 2).val → out1_3 V c t j = G k) :
    (dat1 V qs c).arrAt 3 cfg1.N = G := by
  refine (dat1 V qs c).arrAt_eq_of_cover 3 G (fun t _ => ?_) cover3
  show (cfg1.win 3).cut (grid1.coords t) ((dat1 V qs c).after 3 t) = _
  rw [after1_3]
  funext j
  obtain ⟨-, -, -, -, -, -, -, e0, e1, e2, -⟩ := idx_facts t
  show out1_3 V c t j = G (((cfg1.win 3).blk t).view.emb j)
  refine hG t j _ ?_ ?_ ?_
  · show win1_3.index t (0 : Fin 3) * 8 + 1 * (j 0).val = (j 0).val; rw [e0]; omega
  · show win1_3.index t (1 : Fin 3) * 256 + 1 * (j 1).val = _; rw [e1]; omega
  · show win1_3.index t (2 : Fin 3) * 512 + 1 * (j 2).val = _; rw [e2]; omega

end AnyInstance

/-! ## The array, at the extended reals

On a tile that meets the diagonal the body adds the identity's entry — one where the array's row number equals its
column number, zero elsewhere — before scaling; on the other tiles it does not, and there no entry of the tile is on
the diagonal (the column block is not half the row block), so the identity's entry is zero and adding it changes
nothing. Either way the entry at (b, i, j) is the row factor of row i, the entry with the diagonal raised by one,
the row factor of row j. -/

section AtIdeal

open Cert.KernelIdeal.Payload1

variable (V : (c : Dev nD) → (b : Ref sig .tc) → Buf (Elt Ideal) ((c : Thread nD τ).loc b))
variable (qs : Fin cfg1.W → PosShare TreeShare)

/-- The output array after the second pass: the normalised matrix of the big input as the region finds it, with
    the row factors the scale array holds. -/
theorem value1 (c : Dev nD) :
    (dat1 (F := Ideal) V qs c).arrAt 3 cfg1.N = Cert.Spec.norm (V c main_arg0) (V c main_v0) := by
  refine arr1_3_of V qs c _ fun t j k => ?_
  obtain ⟨b, r, s, rfl⟩ : ∃ (b : Fin 8) (r : Fin 256) (s : Fin 512), j = ix3 b r s := ⟨j 0, j 1, j 2, eq_ix3 j⟩
  obtain ⟨b', i', j', rfl⟩ : ∃ (b' : Fin 8) (i' j' : Fin 2048), k = ix3 b' i' j' := ⟨k 0, k 1, k 2, eq_ix3 k⟩
  intro hk0 hk1 hk2
  change b'.val = b.val at hk0
  change i'.val = 256 * (t.val / 4) + r.val at hk1
  change j'.val = 512 * (t.val % 4) + s.val at hk2
  obtain rfl : b' = b := Fin.ext hk0
  have hr : r.val < 256 := r.isLt
  have hs : s.val < 512 := s.isLt
  have hN : t.val < 32 := lt_of_lt_of_eq t.isLt N_1
  obtain ⟨-, -, -, -, -, -, -, -, -, -, g0, g1⟩ := idx_facts t
  have e0 : (iblk1 V c 0 t : Vec Ideal S8x256x512 .f32) (ix3 b' r s) = (V c main_arg0 : S8x2048x2048.Idx → Elt Ideal .f32) (ix3 b' i' j') :=
    iblk1_0_apply V c t (ix3 b' r s) (ix3 b' i' j') rfl hk1 hk2
  have e1 : (iblk1 V c 1 t : Vec Ideal S8x256 .f32) (ix2 b' r) = (V c main_v0 : S8x2048.Idx → Elt Ideal .f32) (ix2 b' i') :=
    iblk1_1_apply V c t (ix2 b' r) (ix2 b' i') rfl hk1
  have e2 : (iblk1 V c 2 t : Vec Ideal S8x512 .f32) (ix2 b' s) = (V c main_v0 : S8x2048.Idx → Elt Ideal .f32) (ix2 b' j') :=
    iblk1_2_apply V c t (ix2 b' s) (ix2 b' j') rfl hk2
  rw [Cert.Spec.norm_ix3]
  unfold out1_3
  by_cases h : t.val % 4 = t.val / 4 / 2
  · rw [if_pos ((hcond1 t).mpr h)]
    refine (pay3_at (grid1.coords t) (iblk1 V c 0 t) (iblk1 V c 1 t) (iblk1 V c 2 t) b' r s).trans ?_
    rw [e0, e1, e2]
    have hc : (256 * ((grid1.coords t) 0).val + r.val = 512 * ((grid1.coords t) 1).val + s.val) ↔ i' = j' := by
      rw [g0, g1, Fin.ext_iff, hk1, hk2]
    rw [if_congr hc rfl rfl]
  · rw [if_neg (fun h' => h ((hcond1 t).mp h'))]
    refine (pay4_at (iblk1 V c 0 t) (iblk1 V c 1 t) (iblk1 V c 2 t) b' r s).trans ?_
    rw [e0, e1, e2]
    have hne : ¬ i' = j' := fun e => by
      have e' := congrArg Fin.val e
      rw [hk1, hk2] at e'
      omega
    rw [if_neg hne, add_zero]

end AtIdeal

end Cert.KernelIdeal.Value1

end
-- ==== Proof.Bridge.lean ====
import proofs.«141870_j36000415875584_2_alg».proof.Proof.KernelIdeal.Run
import proofs.«141870_j36000415875584_2_alg».proof.Proof.KernelIdeal.Value0
import proofs.«141870_j36000415875584_2_alg».proof.Proof.KernelIdeal.Value1
import proofs.«141870_j36000415875584_2_alg».proof.Proof.SpecNorm

/-! The two passes joined. The second pass computes, entry by entry, `(d[b,i] · (x[b,i,j] + δ_ij)) · d[b,j]` of the matrix
`x` it finds in the argument array and the vector `d` it finds in the intermediate array. The argument array still holds
the launch contents, and the intermediate array holds what the first pass left: `d = dinv (Σ_j x[b,i,j] + 1)` of those
same contents. So the result array is the whole function `G` of the launch contents. -/

noncomputable section

namespace Cert.KernelIdeal.Bridge

open Cert.KernelIdeal Cert.KernelIdeal.Gen
open Idealize.ShloMosaic Idealize.ShloMosaic.TcCoe Idealize.SL.Sem

theorem result_eq (m : (ℓ : Loc nD τ sig) → Buf (Elt Ideal) ℓ) (ρ : Dev nD → PrngReg) (c : Dev nD) :
    (Run.d1 (F := Ideal) m ρ c).arrAt 3 cfg1.N = Cert.Spec.G (m ((c.tc : Thread nD τ).loc main_arg0)) := by
  rw [show Run.d1 (F := Ideal) m ρ c = Region1.dat1 (F := Ideal) (Run.V2 m ρ) Run.qs1 c from rfl,
    Value1.value1 (Run.V2 m ρ) Run.qs1 c, Run.V2_main_arg0, Run.V2_main_v0, Value0.value0 (Run.V0 m ρ) c]
  exact Cert.Spec.norm_dvec _

end Cert.KernelIdeal.Bridge

end
-- ==== Proof.lean ====
/- The kernel normalises a batch of square matrices in two passes. The first pass reduces each row of `x` to
   `deg = Σ_j x[b,i,j] + 1` (the sum taken over two column halves, accumulated in a scratch across two grid points) and
   stores `d = rsqrt(deg)` where `deg > 0`, `0` elsewhere. The second pass writes `(d[b,i] · (x[b,i,j] + δ_ij)) · d[b,j]`,
   adding the diagonal only on the tiles that meet it. The reference adds the identity first, sums the rows of the sum,
   takes the same `d` and forms the same product. On the extended reals the two agree with no finiteness needed:
   `Σ_j (x_j + δ_ij) = Σ_j x_j + 1` in any commutative monoid, `x + 0 = x` off the diagonal, and the order of the
   two products is the same on both sides.
   The frames of the kernel (word-level and idealized) are its run through both passes with every array named between
   them; the reference's frame is its run with the result dropped; the idealization rewrote nothing. -/
import proofs.«141870_j36000415875584_2_alg».proof.Defs
import proofs.«141870_j36000415875584_2_alg».proof.Proof.Gen.Kernel
import proofs.«141870_j36000415875584_2_alg».proof.Proof.Gen.KernelIdeal
import proofs.«141870_j36000415875584_2_alg».proof.Proof.Gen.ReferenceIdeal
import proofs.«141870_j36000415875584_2_alg».proof.Proof.Gen.ReferenceIdeal.Read
import proofs.«141870_j36000415875584_2_alg».proof.Proof.Gen.Pre_finite_inputs
import proofs.«141870_j36000415875584_2_alg».proof.Proof.Kernel.Run
import proofs.«141870_j36000415875584_2_alg».proof.Proof.KernelIdeal.Run
import proofs.«141870_j36000415875584_2_alg».proof.Proof.RefValue
import proofs.«141870_j36000415875584_2_alg».proof.Proof.Bridge
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Run.frame m ρ

theorem frame_ki : @Cert.frame_KernelIdeal Cert.KernelIdeal.Gen.facts Cert.Pre_finite_inputs.Gen.facts :=
  fun m ρ _ => Cert.KernelIdeal.Run.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the result array at `G` of the argument's launch contents. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (m ((c.tc : Thread Cert.KernelIdeal.nD Cert.KernelIdeal.τ).loc Cert.KernelIdeal.main_arg0)), ?_, ?_⟩
  · exact (θ_run Cert.KernelIdeal.defs _ _).mono
      (fun _ h c => ⟨((h c).1).trans (Cert.KernelIdeal.Bridge.result_eq m ρ c), (h c).2⟩)
      (Cert.KernelIdeal.Run.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v24_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
